-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 55
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x1, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S1x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S1x8192, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S1x8192, .f32⟩
  | .hbm, ⟨48, _⟩ => ⟨S8192x512, .bf16⟩
  | .hbm, ⟨49, _⟩ => ⟨S8192x512, .bf16⟩
  | .hbm, ⟨50, _⟩ => ⟨S8192x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c512_i32 : BitVec 32 := 512#32
  let v25 : BitVec 32 := Scalar.muli arg1 c512_i32
  let arg0 : BitVec 32 := BitVec.ofNat 32 (i 0).val
  let c1024_i32 : BitVec 32 := 1024#32
  let v23 : BitVec 32 := Scalar.muli arg0 c1024_i32
  let c1024_i32_12 : BitVec 32 := 1024#32
  let v24 : BitVec 32 := Scalar.addi v23 c1024_i32_12
  let v27 : BitVec 1 := Scalar.cmpi .slt v25 v24
  let c512_i32_13 : BitVec 32 := 512#32
  let v26 : BitVec 32 := Scalar.addi v25 c512_i32_13
  let v28 : BitVec 1 := Scalar.cmpi .sgt v26 v23
  let v29 : BitVec 1 := Scalar.andi v27 v28
  let v30 : BitVec 32 := Scalar.extui v29
  let c0_i32_14 : BitVec 32 := 0#32
  let v31 : BitVec 1 := Scalar.cmpi .ne v30 c0_i32_14
  v31

def k0_cond3 (i : grid0.Coords) : BitVec 1 :=
  let arg1 : BitVec 32 := BitVec.ofNat 32 (i 1).val
  let c512_i32 : BitVec 32 := 512#32
  let v25 : BitVec 32 := Scalar.muli arg1 c512_i32
  let arg0 : BitVec 32 := BitVec.ofNat 32 (i 0).val
  let c1024_i32 : BitVec 32 := 1024#32
  let v23 : BitVec 32 := Scalar.muli arg0 c1024_i32
  let c1024_i32_12 : BitVec 32 := 1024#32
  let v24 : BitVec 32 := Scalar.addi v23 c1024_i32_12
  let v27 : BitVec 1 := Scalar.cmpi .slt v25 v24
  let c512_i32_13 : BitVec 32 := 512#32
  let v26 : BitVec 32 := Scalar.addi v25 c512_i32_13
  let v28 : BitVec 1 := Scalar.cmpi .sgt v26 v23
  let v29 : BitVec 1 := Scalar.andi v27 v28
  let v_true : BitVec 1 := 1#1
  let v32 : BitVec 1 := Scalar.xori v29 v_true
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  bcast_S_S1x8192 : S_.BroadcastsInDim S1x8192 (![] : Fin 0 → Fin S1x8192.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  reducesTo_S8192x1_S_d0_1 : S8192x1.ReducesTo [0, 1] S_
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v34) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x1, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .i32⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S8192x1, .f32⟩
  | .hbm, ⟨62, _⟩ => ⟨S8192x8192, .f32⟩
  | .hbm, ⟨63, _⟩ => ⟨S8192x8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.AccData.lean ====
/-
  The data of the pallas_call's frame: what the block of running row sums holds after each grid point.

  The grid is 8 × 16: point t = 16·i + j works on rows 1024·i … 1024·i + 1023 and columns 512·j … 512·j + 511.
  The output block (1024 rows, one column) is shared by the 16 points of one i: the point j = 0 first sets it to
  zero, and every point then adds, to each row, the sum over its 512 columns of the softplus terms — through the
  branch that replaces the diagonal entries when the column tile meets the diagonal, through the plain branch
  otherwise. So after point t the block is one `step` applied to zero (j = 0) or to what point t − 1 left.
-/
import proofs.«151191_j39779987096333_2_alg».proof.Proof.Gen.KernelIdeal.Skeleton
import proofs.«151191_j39779987096333_2_alg».proof.Proof.Gen.KernelIdeal.Frame

set_option maxRecDepth 16384

noncomputable section

namespace Cert.KernelIdeal.Acc

open Idealize.ShloMosaic Idealize.ShloMosaic.TcCoe
open Idealize.SL Idealize.SL.RA Idealize.SL.BI Idealize.SL.Sem
open Idealize.ShloMosaic.Pipeline (Dat Cfg Window)
open Cert.KernelIdeal Cert.KernelIdeal.Gen

variable {F : FTy → Type} [FloatOps F]

/-- One grid point's update of the block of running row sums `acc`, from the point's six input blocks: the
    diagonal-replacing branch where the column tile meets the row tile's diagonal span, the plain branch elsewhere. -/
def step (i : grid0.Coords) (x0 : Vec F S1024x512 .bf16) (x1 : Vec F S512x512 .bf16) (x2 : Vec F S1024x1 .f32)
    (x3 : Vec F S1x512 .f32) (x4 x5 acc : Vec F S1024x1 .f32) : Vec F S1024x1 .f32 :=
  if k0_cond2 i = 1#1 then k0_pay5 i x0 x1 x2 x3 x4 x5 acc else k0_pay1 (k0_pay3 x0 x1 x2 x3) (k0_pay4 x4) acc

variable (m : (ℓ : Loc nD τ sig) → Buf (Elt F) ℓ)

/-- The update at point `t`, on the blocks the six input windows hold there. -/
def stepAt (c : Dev nD) (t : Fin cfg0.N) (acc : Vec F S1024x1 .f32) : Vec F S1024x1 .f32 :=
  step (grid0.coords t) (iblk m c 0 t) (iblk m c 1 t) (iblk m c 2 t) (iblk m c 3 t) (iblk m c 4 t) (iblk m c 5 t) acc

/-- What the output's staging buffer holds after the body at point `n`: the update of zero at the first point of
    a row tile (n ≡ 0 mod 16), of what point n − 1 left otherwise. -/
def outsAt (c : Dev nD) : (n : ℕ) → n < cfg0.N → Vec F S1024x1 .f32
  | 0, hn => stepAt m c ⟨0, hn⟩ (k0_pay2 (F := F))
  | n + 1, hn => stepAt m c ⟨n + 1, hn⟩
      (if (n + 1) % 16 = 0 then (k0_pay2 (F := F)) else outsAt c n (Nat.lt_of_succ_lt hn))

theorem outsAt_zero (c : Dev nD) (hn : 0 < cfg0.N) :
    outsAt m c 0 hn = stepAt m c ⟨0, hn⟩ (k0_pay2 (F := F)) := rfl

theorem outsAt_succ (c : Dev nD) (n : ℕ) (hn : n + 1 < cfg0.N) :
    outsAt m c (n + 1) hn = stepAt m c ⟨n + 1, hn⟩
      (if (n + 1) % 16 = 0 then (k0_pay2 (F := F)) else outsAt m c n (Nat.lt_of_succ_lt hn)) := rfl

/-- At the first point of a row tile the update starts from zero. -/
theorem outsAt_first (c : Dev nD) (t : Fin cfg0.N) (h0 : t.val % 16 = 0) :
    outsAt m c t.val t.isLt = stepAt m c t (k0_pay2 (F := F)) := by
  obtain ⟨n, hn⟩ := t
  cases n with
  | zero => rfl
  | succ n => rw [outsAt_succ]; dsimp only at h0; rw [if_pos h0]

/-- At every other point it starts from what the point before left. -/
theorem outsAt_next (c : Dev nD) (t : Fin cfg0.N) (h0 : ¬t.val % 16 = 0) :
    outsAt m c t.val t.isLt
      = stepAt m c t (outsAt m c (t.val - 1) (Nat.lt_of_le_of_lt (Nat.sub_le _ _) t.isLt)) := by
  obtain ⟨n, hn⟩ := t
  cases n with
  | zero => exact absurd (Nat.zero_mod _) h0
  | succ n => rw [outsAt_succ]; dsimp only at h0; rw [if_neg h0]; rfl

/-- The pipeline's proof data on core `c`: the arrays as the region finds them; after the body at point `t` each
    input's buffer at its block and the output's at `outsAt`; the invariant is the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t.val t.isLt := by dsimp only [dats]

end Cert.KernelIdeal.Acc

end
-- ==== Proof.LibWholeStore.lean ====
/-
  A buffer after a last store that covers its whole shape.

  When the last of a run of stores through a view writes the whole shape at offset zero, the buffer reads back as that
  store's payload, whatever was stored before and whatever the buffer held at first.  A load of the whole shape reads
  the contents themselves.  Stated for any view, element type and value type.
-/
import Idealize.ShloMosaic.Lib.Pipeline.FrameBody
import Idealize.ShloMosaic.Lib.Pipeline.Value

namespace Idealize.ShloMosaic.View

variable {sig : RefSig} {κ : Kind} {sp : Space} {S : Shape} {e : EltTy} {Val : EltTy → Type}

/-- After stores of which the last covers the whole shape, the buffer reads as that store's payload. -/
theorem read_writes_whole_last [∀ e, Nonempty (Val e)] (v : View sig κ sp S e) (f : v.ty.Contents Val)
    {off : Fin S.rank → Nat} (h : off = fun _ => 0) (inb : ∀ a, off a + S.size a ≤ S.size a) (w : S.Idx → Val e)
    (L : List (Piece Val S e)) :
    v.read Val (v.writes Val f ((⟨Rect.unit off S.size inb, w⟩ : Piece Val S e) :: L)) = w := by
  rw [read_writes_eq_canon v f _ (fun y => ⟨_, List.mem_cons_self, mem_set_unit_zero h inb y⟩),
    canon_cons_unit_zero h inb]

/-- The zero offsets of a rank-2 shape, however spelt. -/
theorem zero2 : (![0, 0] : Fin 2 → Nat) = fun _ => 0 := by
  funext a; fin_cases a <;> rfl

/-- The zero offsets of a rank-3 shape. -/
theorem zero3 : (![0, 0, 0] : Fin 3 → Nat) = fun _ => 0 := by
  funext a; fin_cases a <;> rfl

end Idealize.ShloMosaic.View
-- ==== Proof.AccBody.lean ====
/-
  The body of the pallas_call at one grid point, and the frame around it.

  The output block of running row sums is an accumulator over the column tiles j of one row tile i. The body first
  (j = 0 only) stores zero over the whole block; then exactly one of two branches loads the block and stores, over
  the whole block again, the loaded sums plus this tile's row sums of the softplus terms — the branch that replaces
  the diagonal entries where the column tile meets the row tile's diagonal span, the plain branch elsewhere. So in
  each of the four control cases (first column tile or not, diagonal branch or plain) the block ends as one `step`
  applied to zero or to what the block held on entry: a store covering the whole block leaves its payload whatever
  lay beneath, and a load of the whole block reads the contents as they stand.

  Which case a point is in is read off the three conditions at its coordinates: the first holds exactly at the
  points ≡ 0 (mod 16), the third exactly where the second fails; both facts are decided over the 128 points. Hence
  the block is written at every point, it is handed over from point to point within a row tile untouched (it is
  written back only at the last column tile), and `outsAt` — the recursion of the proof data — is what it holds
  after each point. The six input blocks are found in place at every point. From the body obligation the frame of
  the whole program follows by the pipeline library's run around the region.
-/
import proofs.«151191_j39779987096333_2_alg».proof.Proof.AccData
import proofs.«151191_j39779987096333_2_alg».proof.Proof.LibWholeStore

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading a whole staging buffer back -/

/-- A load of the whole shape at offset zero from a whole buffer holding `X` reads `X`. -/
theorem readAt_whole_unread {sig : RefSig} {κ : Kind} {sp : Space} {S : Shape} {e : EltTy} {Val : EltTy → Type}
    (m : Memref sig κ sp S e) (h : m.IsWhole) {off : Fin S.rank → Nat} (h0 : off = fun _ => 0)
    (inb : ∀ a, off a + S.size a ≤ S.size a) (X : S.Idx → Val e) :
    m.view.readAt Val (Rect.unit off S.size inb).toLoadRect (h.unread X) = X := by
  rw [View.readAt_eq_ld, View.ld_unit_zero h0, h.read_unread]

/-! ## The body in each of its four control cases

Each statement: on whole staging memrefs, the six inputs holding `x0 … x5` and the output block holding anything
(first column tile) or `xo` (later ones), the body runs to the continuation with the inputs as they were and the
output block at `step` of zero, respectively of `xo`. The conditionals are decided by the case's hypotheses; the
last store covers the block, so the block reads as that store's payload, and the loads inside the payload read the
inputs' contents and, for the accumulator, the zeros just stored or `xo`. -/

set_option maxHeartbeats 1000000 in
/-- First column tile, diagonal branch: the block is zeroed, then the diagonal branch adds this tile's row sums to
    the zeros it loads back. Whatever the block held on entry is overwritten. -/
theorem run_first_diag (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : k0_cond1 i = 1#1) (hc2 : k0_cond2 i = 1#1) (hc3 : ¬k0_cond3 i = 1#1)
    (x0 : Vec F S1024x512 .bf16) (x1 : Vec F S512x512 .bf16) (x2 : Vec F S1024x1 .f32) (x3 : Vec F S1x512 .f32)
    (x4 x5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 (k0_pay2 (F := F)))) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg7 harg7 View.zero2, View.readCov_unit_zero arg8.view View.zero2]
  unfold step; rw [if_pos hc2]

set_option maxHeartbeats 1000000 in
/-- A later column tile, diagonal branch: the branch adds this tile's row sums to the block as found. -/
theorem run_next_diag (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬k0_cond1 i = 1#1) (hc2 : k0_cond2 i = 1#1) (hc3 : ¬k0_cond3 i = 1#1)
    (x0 : Vec F S1024x512 .bf16) (x1 : Vec F S512x512 .bf16) (x2 : Vec F S1024x1 .f32) (x3 : Vec F S1x512 .f32)
    (x4 x5 : Vec F S1024x1 .f32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg7 harg7 View.zero2, readAt_whole_unread arg8 harg8 View.zero2]
  unfold step; rw [if_pos hc2]

set_option maxHeartbeats 1000000 in
/-- First column tile, plain branch: the block is zeroed, then the plain branch adds this tile's row sums to the
    zeros it loads back. -/
theorem run_first_plain (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : k0_cond1 i = 1#1) (hc2 : ¬k0_cond2 i = 1#1) (hc3 : k0_cond3 i = 1#1)
    (x0 : Vec F S1024x512 .bf16) (x1 : Vec F S512x512 .bf16) (x2 : Vec F S1024x1 .f32) (x3 : Vec F S1x512 .f32)
    (x4 x5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 (k0_pay2 (F := F)))) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  dsimp only
  rw [readAt_whole_unread arg2 harg2 View.zero2, readAt_whole_unread arg3 harg3 View.zero2,
    readAt_whole_unread arg4 harg4 View.zero2, readAt_whole_unread arg5 harg5 View.zero2,
    readAt_whole_unread arg6 harg6 View.zero2, View.readCov_unit_zero arg8.view View.zero2]
  unfold step; rw [if_neg hc2]

set_option maxHeartbeats 1000000 in
/-- A later column tile, plain branch: the branch adds this tile's row sums to the block as found. -/
theorem run_next_plain (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬k0_cond1 i = 1#1) (hc2 : ¬k0_cond2 i = 1#1) (hc3 : k0_cond3 i = 1#1)
    (x0 : Vec F S1024x512 .bf16) (x1 : Vec F S512x512 .bf16) (x2 : Vec F S1024x1 .f32) (x3 : Vec F S1x512 .f32)
    (x4 x5 : Vec F S1024x1 .f32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  dsimp only
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg8 harg8 View.zero2]
  unfold step; rw [if_neg hc2]

variable (m : (ℓ : Loc nD τ sig) → Buf (Elt F) ℓ) (ρ : Dev nD → PrngReg)

/-! ## The control conditions over the grid -/

/-- The zeroing condition holds exactly at the first column tile of each row tile: the points ≡ 0 (mod 16). -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The plain branch's condition holds exactly where the diagonal branch's fails: one of the two runs at every point. -/
theorem hcond3 : ∀ t : Fin cfg0.N, k0_cond3 (grid0.coords t) = 1#1 ↔ ¬k0_cond2 (grid0.coords t) = 1#1 :=
  (by decide +kernel : ∀ t : Fin grid0.N, k0_cond3 (grid0.coords t) = 1#1 ↔ ¬k0_cond2 (grid0.coords t) = 1#1)

/-- Hence the output block is stored into at every grid coordinate: it is nowhere idle. -/
theorem live6 : ∀ i : grid0.Coords, cfg0.idle 6 i = false := by decide +kernel

/-! ## What the staging buffers hold before the body -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a point that is not the first of its row tile the output block's staging buffer holds what the body left at
    the point before: the point is not the grid's first, the block is written back only at the last column tile
    (the points ≡ 15 mod 16, so not at the point before), and the window is live and uncut. -/
theorem before0_6_next (c : Dev nD) (t : Fin cfg0.N) (h0 : ¬t.val % 16 = 0) (d) :
    (dats m 0 c).before 6 t d = outsAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    live6 (fun _ _ => rfl)]
  dsimp only [dats]

/-! ## The body obligation, at a generic point -/

/-- Each window's current staging memref at point `t`, as the pipeline passes it to the body, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)

/-- What the body is called with at point `t`: the invariant, what the core owes, and the seven windows' current
    staging buffers at what they hold then. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns: the invariant and the debt at the next point, the inputs' buffers at their blocks, the output
    block's at what the proof data says the body leaves (the window being live everywhere, that is `after`). -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 800000 in
/-- The body at any point. The inputs' buffers hold their blocks; the first condition says whether the point is the
    first of its row tile, and then the output block ends at `step` of zero (`outsAt_first`); otherwise the block
    holds what the point before left (`before0_6_next`) and ends at `step` of that (`outsAt_next`); the second
    condition picks the branch, and where it fails the third holds. The invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).leavesExact 6 t = owns (c : Thread nD τ) (ms6 t) fullShare ((dats m 0 c).after 6 t) from by
    unfold Dat.leavesExact; rw [live6]]
  rewrite [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h1 : k0_cond1 (grid0.coords t) = 1#1
  · rw [outsAt_first m c t ((hcond1 t).mp h1)]
    unfold stepAt
    by_cases h2 : k0_cond2 (grid0.coords t) = 1#1
    · have h3 : ¬k0_cond3 (grid0.coords t) = 1#1 := fun h => (hcond3 t).mp h h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_first_diag c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h3 : k0_cond3 (grid0.coords t) = 1#1 := (hcond3 t).mpr h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_first_plain c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h0 : ¬t.val % 16 = 0 := fun h => h1 ((hcond1 t).mpr h)
    rw [outsAt_next m c t h0]
    unfold stepAt
    simp only [before0_6_next m c t h0]
    by_cases h2 : k0_cond2 (grid0.coords t) = 1#1
    · have h3 : ¬k0_cond3 (grid0.coords t) = 1#1 := fun h => (hcond3 t).mp h h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_next_diag c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h3 : k0_cond3 (grid0.coords t) = 1#1 := (hcond3 t).mpr h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_next_plain c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the whole program on the cores terminates, and
    every final state has each array of the pipeline at what the library computes from the proof data and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs without fault to termination and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Acc

end
-- ==== Proof.AccDataBits.lean ====
/-
  The data of the pallas_call's frame: what the block of running row sums holds after each grid point.

  The grid is 8 × 16: point t = 16·i + j works on rows 1024·i … 1024·i + 1023 and columns 512·j … 512·j + 511.
  The output block (1024 rows, one column) is shared by the 16 points of one i: the point j = 0 first sets it to
  zero, and every point then adds, to each row, the sum over its 512 columns of the softplus terms — through the
  branch that replaces the diagonal entries when the column tile meets the diagonal, through the plain branch
  otherwise. So after point t the block is one `step` applied to zero (j = 0) or to what point t − 1 left.
-/
import proofs.«151191_j39779987096333_2_alg».proof.Proof.Gen.Kernel.Skeleton
import proofs.«151191_j39779987096333_2_alg».proof.Proof.Gen.Kernel.Frame

set_option maxRecDepth 16384

noncomputable section

namespace Cert.Kernel.Acc

open Idealize.ShloMosaic Idealize.ShloMosaic.TcCoe
open Idealize.SL Idealize.SL.RA Idealize.SL.BI Idealize.SL.Sem
open Idealize.ShloMosaic.Pipeline (Dat Cfg Window)
open Cert.Kernel Cert.Kernel.Gen

variable {F : FTy → Type} [FloatOps F]

/-- One grid point's update of the block of running row sums `acc`, from the point's six input blocks: the
    diagonal-replacing branch where the column tile meets the row tile's diagonal span, the plain branch elsewhere. -/
def step (i : grid0.Coords) (x0 : Vec F S1024x512 .bf16) (x1 : Vec F S512x512 .bf16) (x2 : Vec F S1024x1 .f32)
    (x3 : Vec F S1x512 .f32) (x4 x5 acc : Vec F S1024x1 .f32) : Vec F S1024x1 .f32 :=
  if k0_cond2 i = 1#1 then k0_pay5 i x0 x1 x2 x3 x4 x5 acc else k0_pay1 (k0_pay3 x0 x1 x2 x3) (k0_pay4 x4) acc

variable (m : (ℓ : Loc nD τ sig) → Buf (Elt F) ℓ)

/-- The update at point `t`, on the blocks the six input windows hold there. -/
def stepAt (c : Dev nD) (t : Fin cfg0.N) (acc : Vec F S1024x1 .f32) : Vec F S1024x1 .f32 :=
  step (grid0.coords t) (iblk m c 0 t) (iblk m c 1 t) (iblk m c 2 t) (iblk m c 3 t) (iblk m c 4 t) (iblk m c 5 t) acc

/-- What the output's staging buffer holds after the body at point `n`: the update of zero at the first point of
    a row tile (n ≡ 0 mod 16), of what point n − 1 left otherwise. -/
def outsAt (c : Dev nD) : (n : ℕ) → n < cfg0.N → Vec F S1024x1 .f32
  | 0, hn => stepAt m c ⟨0, hn⟩ (k0_pay2 (F := F))
  | n + 1, hn => stepAt m c ⟨n + 1, hn⟩
      (if (n + 1) % 16 = 0 then (k0_pay2 (F := F)) else outsAt c n (Nat.lt_of_succ_lt hn))

theorem outsAt_zero (c : Dev nD) (hn : 0 < cfg0.N) :
    outsAt m c 0 hn = stepAt m c ⟨0, hn⟩ (k0_pay2 (F := F)) := rfl

theorem outsAt_succ (c : Dev nD) (n : ℕ) (hn : n + 1 < cfg0.N) :
    outsAt m c (n + 1) hn = stepAt m c ⟨n + 1, hn⟩
      (if (n + 1) % 16 = 0 then (k0_pay2 (F := F)) else outsAt m c n (Nat.lt_of_succ_lt hn)) := rfl

/-- At the first point of a row tile the update starts from zero. -/
theorem outsAt_first (c : Dev nD) (t : Fin cfg0.N) (h0 : t.val % 16 = 0) :
    outsAt m c t.val t.isLt = stepAt m c t (k0_pay2 (F := F)) := by
  obtain ⟨n, hn⟩ := t
  cases n with
  | zero => rfl
  | succ n => rw [outsAt_succ]; dsimp only at h0; rw [if_pos h0]

/-- At every other point it starts from what the point before left. -/
theorem outsAt_next (c : Dev nD) (t : Fin cfg0.N) (h0 : ¬t.val % 16 = 0) :
    outsAt m c t.val t.isLt
      = stepAt m c t (outsAt m c (t.val - 1) (Nat.lt_of_le_of_lt (Nat.sub_le _ _) t.isLt)) := by
  obtain ⟨n, hn⟩ := t
  cases n with
  | zero => exact absurd (Nat.zero_mod _) h0
  | succ n => rw [outsAt_succ]; dsimp only at h0; rw [if_neg h0]; rfl

/-- The pipeline's proof data on core `c`: the arrays as the region finds them; after the body at point `t` each
    input's buffer at its block and the output's at `outsAt`; the invariant is the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t.val t.isLt := by dsimp only [dats]

end Cert.Kernel.Acc

end
-- ==== Proof.AccBodyBits.lean ====
/-
  The body of the pallas_call at one grid point, and the frame around it.

  The output block of running row sums is an accumulator over the column tiles j of one row tile i. The body first
  (j = 0 only) stores zero over the whole block; then exactly one of two branches loads the block and stores, over
  the whole block again, the loaded sums plus this tile's row sums of the softplus terms — the branch that replaces
  the diagonal entries where the column tile meets the row tile's diagonal span, the plain branch elsewhere. So in
  each of the four control cases (first column tile or not, diagonal branch or plain) the block ends as one `step`
  applied to zero or to what the block held on entry: a store covering the whole block leaves its payload whatever
  lay beneath, and a load of the whole block reads the contents as they stand.

  Which case a point is in is read off the three conditions at its coordinates: the first holds exactly at the
  points ≡ 0 (mod 16), the third exactly where the second fails; both facts are decided over the 128 points. Hence
  the block is written at every point, it is handed over from point to point within a row tile untouched (it is
  written back only at the last column tile), and `outsAt` — the recursion of the proof data — is what it holds
  after each point. The six input blocks are found in place at every point. From the body obligation the frame of
  the whole program follows by the pipeline library's run around the region.
-/
import proofs.«151191_j39779987096333_2_alg».proof.Proof.AccDataBits
import proofs.«151191_j39779987096333_2_alg».proof.Proof.LibWholeStore

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading a whole staging buffer back -/

/-- A load of the whole shape at offset zero from a whole buffer holding `X` reads `X`. -/
theorem readAt_whole_unread {sig : RefSig} {κ : Kind} {sp : Space} {S : Shape} {e : EltTy} {Val : EltTy → Type}
    (m : Memref sig κ sp S e) (h : m.IsWhole) {off : Fin S.rank → Nat} (h0 : off = fun _ => 0)
    (inb : ∀ a, off a + S.size a ≤ S.size a) (X : S.Idx → Val e) :
    m.view.readAt Val (Rect.unit off S.size inb).toLoadRect (h.unread X) = X := by
  rw [View.readAt_eq_ld, View.ld_unit_zero h0, h.read_unread]

/-! ## The body in each of its four control cases

Each statement: on whole staging memrefs, the six inputs holding `x0 … x5` and the output block holding anything
(first column tile) or `xo` (later ones), the body runs to the continuation with the inputs as they were and the
output block at `step` of zero, respectively of `xo`. The conditionals are decided by the case's hypotheses; the
last store covers the block, so the block reads as that store's payload, and the loads inside the payload read the
inputs' contents and, for the accumulator, the zeros just stored or `xo`. -/

set_option maxHeartbeats 1000000 in
/-- First column tile, diagonal branch: the block is zeroed, then the diagonal branch adds this tile's row sums to
    the zeros it loads back. Whatever the block held on entry is overwritten. -/
theorem run_first_diag (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : k0_cond1 i = 1#1) (hc2 : k0_cond2 i = 1#1) (hc3 : ¬k0_cond3 i = 1#1)
    (x0 : Vec F S1024x512 .bf16) (x1 : Vec F S512x512 .bf16) (x2 : Vec F S1024x1 .f32) (x3 : Vec F S1x512 .f32)
    (x4 x5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 (k0_pay2 (F := F)))) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg7 harg7 View.zero2, View.readCov_unit_zero arg8.view View.zero2]
  unfold step; rw [if_pos hc2]

set_option maxHeartbeats 1000000 in
/-- A later column tile, diagonal branch: the branch adds this tile's row sums to the block as found. -/
theorem run_next_diag (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬k0_cond1 i = 1#1) (hc2 : k0_cond2 i = 1#1) (hc3 : ¬k0_cond3 i = 1#1)
    (x0 : Vec F S1024x512 .bf16) (x1 : Vec F S512x512 .bf16) (x2 : Vec F S1024x1 .f32) (x3 : Vec F S1x512 .f32)
    (x4 x5 : Vec F S1024x1 .f32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg7 harg7 View.zero2, readAt_whole_unread arg8 harg8 View.zero2]
  unfold step; rw [if_pos hc2]

set_option maxHeartbeats 1000000 in
/-- First column tile, plain branch: the block is zeroed, then the plain branch adds this tile's row sums to the
    zeros it loads back. -/
theorem run_first_plain (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : k0_cond1 i = 1#1) (hc2 : ¬k0_cond2 i = 1#1) (hc3 : k0_cond3 i = 1#1)
    (x0 : Vec F S1024x512 .bf16) (x1 : Vec F S512x512 .bf16) (x2 : Vec F S1024x1 .f32) (x3 : Vec F S1x512 .f32)
    (x4 x5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 (k0_pay2 (F := F)))) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  dsimp only
  rw [readAt_whole_unread arg2 harg2 View.zero2, readAt_whole_unread arg3 harg3 View.zero2,
    readAt_whole_unread arg4 harg4 View.zero2, readAt_whole_unread arg5 harg5 View.zero2,
    readAt_whole_unread arg6 harg6 View.zero2, View.readCov_unit_zero arg8.view View.zero2]
  unfold step; rw [if_neg hc2]

set_option maxHeartbeats 1000000 in
/-- A later column tile, plain branch: the branch adds this tile's row sums to the block as found. -/
theorem run_next_plain (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬k0_cond1 i = 1#1) (hc2 : ¬k0_cond2 i = 1#1) (hc3 : k0_cond3 i = 1#1)
    (x0 : Vec F S1024x512 .bf16) (x1 : Vec F S512x512 .bf16) (x2 : Vec F S1024x1 .f32) (x3 : Vec F S1x512 .f32)
    (x4 x5 : Vec F S1024x1 .f32) (xo : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__xbm_kernel i arg2 harg2 arg3 harg3 arg4 harg4 arg5 harg5 arg6 harg6 arg7 harg7 arg8 harg8) K := by
  simp only [cc0__xbm_kernel_eq_skeleton]; unfold cc0__xbm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact H6
  ipureintro
  refine (View.read_writes_whole_last arg8.view _ View.zero2 _ _ _).trans ?_
  sl_unfold_run_names
  dsimp only
  rw [readAt_whole_unread arg2 harg2 View.zero2, readAt_whole_unread arg3 harg3 View.zero2,
    readAt_whole_unread arg4 harg4 View.zero2, readAt_whole_unread arg5 harg5 View.zero2,
    readAt_whole_unread arg6 harg6 View.zero2, readAt_whole_unread arg8 harg8 View.zero2]
  unfold step; rw [if_neg hc2]

variable (m : (ℓ : Loc nD τ sig) → Buf (Elt F) ℓ) (ρ : Dev nD → PrngReg)

/-! ## The control conditions over the grid -/

/-- The zeroing condition holds exactly at the first column tile of each row tile: the points ≡ 0 (mod 16). -/
theorem hcond1 : ∀ t : Fin cfg0.N, k0_cond1 (grid0.coords t) = 1#1 ↔ t.val % 16 = 0 :=
  (by decide +kernel : ∀ t : Fin grid0.N, k0_cond1 (grid0.coords t) = 1#1 ↔ t.val % 16 = 0)

/-- The plain branch's condition holds exactly where the diagonal branch's fails: one of the two runs at every point. -/
theorem hcond3 : ∀ t : Fin cfg0.N, k0_cond3 (grid0.coords t) = 1#1 ↔ ¬k0_cond2 (grid0.coords t) = 1#1 :=
  (by decide +kernel : ∀ t : Fin grid0.N, k0_cond3 (grid0.coords t) = 1#1 ↔ ¬k0_cond2 (grid0.coords t) = 1#1)

/-- Hence the output block is stored into at every grid coordinate: it is nowhere idle. -/
theorem live6 : ∀ i : grid0.Coords, cfg0.idle 6 i = false := by decide +kernel

/-! ## What the staging buffers hold before the body -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a point that is not the first of its row tile the output block's staging buffer holds what the body left at
    the point before: the point is not the grid's first, the block is written back only at the last column tile
    (the points ≡ 15 mod 16, so not at the point before), and the window is live and uncut. -/
theorem before0_6_next (c : Dev nD) (t : Fin cfg0.N) (h0 : ¬t.val % 16 = 0) (d) :
    (dats m 0 c).before 6 t d = outsAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    live6 (fun _ _ => rfl)]
  dsimp only [dats]

/-! ## The body obligation, at a generic point -/

/-- Each window's current staging memref at point `t`, as the pipeline passes it to the body, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)

/-- What the body is called with at point `t`: the invariant, what the core owes, and the seven windows' current
    staging buffers at what they hold then. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it returns: the invariant and the debt at the next point, the inputs' buffers at their blocks, the output
    block's at what the proof data says the body leaves (the window being live everywhere, that is `after`). -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t)

set_option maxHeartbeats 800000 in
/-- The body at any point. The inputs' buffers hold their blocks; the first condition says whether the point is the
    first of its row tile, and then the output block ends at `step` of zero (`outsAt_first`); otherwise the block
    holds what the point before left (`before0_6_next`) and ends at `step` of that (`outsAt_next`); the second
    condition picks the branch, and where it fails the third holds. The invariant passes through unread and the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).leavesExact 6 t = owns (c : Thread nD τ) (ms6 t) fullShare ((dats m 0 c).after 6 t) from by
    unfold Dat.leavesExact; rw [live6]]
  rewrite [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h1 : k0_cond1 (grid0.coords t) = 1#1
  · rw [outsAt_first m c t ((hcond1 t).mp h1)]
    unfold stepAt
    by_cases h2 : k0_cond2 (grid0.coords t) = 1#1
    · have h3 : ¬k0_cond3 (grid0.coords t) = 1#1 := fun h => (hcond3 t).mp h h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_first_diag c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h3 : k0_cond3 (grid0.coords t) = 1#1 := (hcond3 t).mpr h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_first_plain c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have h0 : ¬t.val % 16 = 0 := fun h => h1 ((hcond1 t).mpr h)
    rw [outsAt_next m c t h0]
    unfold stepAt
    simp only [before0_6_next m c t h0]
    by_cases h2 : k0_cond2 (grid0.coords t) = 1#1
    · have h3 : ¬k0_cond3 (grid0.coords t) = 1#1 := fun h => (hcond3 t).mp h h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_next_diag c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h3 : k0_cond3 (grid0.coords t) = 1#1 := (hcond3 t).mpr h2
      iintro ⟨HΦ, Ho, ⟨%d0, H0⟩, ⟨%d1, H1⟩, ⟨%d2, H2⟩, ⟨%d3, H3⟩, ⟨%d4, H4⟩, ⟨%d5, H5⟩, ⟨%d6, H6⟩⟩
      iapply (run_next_plain c (grid0.coords t) (ms0 t) (hs0 t) (ms1 t) (hs1 t) (ms2 t) (hs2 t) (ms3 t) (hs3 t) (ms4 t) (hs4 t) (ms5 t) (hs5 t) (ms6 t) (hs6 t) h1 h2 h3 (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      iintro ⟨H0, H1, H2, H3, H4, H5, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the whole program on the cores terminates, and
    every final state has each array of the pipeline at what the library computes from the proof data and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs without fault to termination and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Acc

end
-- ==== Proof.Spec.lean ====
/-
  The loss both programs compute, as functions of the three argument arrays (8192 rows of 512 reals each),
  entry by entry on the extended reals.

  For rows r of the anchors and q of the positives:
    dshift A B r  = ‖A_r − B_r + ε‖₂                      (ε the f32 word of 1e-6)
    sq r q        = ‖A_r − B_q + ε‖₂² expanded: |A_r|² + |B_q|² − 2 A_r·B_q + 2ε(ΣA_r − ΣB_q) + 512 ε²
    dist r q      = sqrt (max (sq r q) 1e-12)
    the negative distance of the pair (r, q) is dist r q off the diagonal and ‖A_r − N_r + ε‖₂ on it,
    x r q         = dshift A P r − that,      loss r q = log (1 + exp (x r q)),
  and the result is the sum of all 8192² losses divided by 8192².  The reference adds the terms of sq in one order
  (`sqR`) and takes log1p ∘ exp directly (`lossR`); the kernel folds the row terms and the column terms of sq
  separately (`sqK`) and takes the stable form max(x,0) + log1p(exp(−|x|)) (`lossK`).
-/
import Idealize.ShloMosaic.PureOps.Ideal
import Idealize.ShloMosaic.Lib.ValueIdx

noncomputable section

namespace Cert.Spec

open Idealize.ShloMosaic Idealize.ShloMosaic.ValueIdx

/-- An argument array: 8192 rows of 512 extended reals. -/
abbrev Arr := (⟨2, ![8192, 512]⟩ : Shape).Idx → EReal

/-- The float literals of the two programs, as the extended reals their words denote. -/
abbrev w_eps : EReal := Ideal.ofBits .f32 0x358637BD#32      -- 1e-6
abbrev w_2eps : EReal := Ideal.ofBits .f32 0x360637BD#32     -- 2e-6
abbrev w_deps2 : EReal := Ideal.ofBits .f32 0x300CBCCC#32    -- 512 · 1e-12
abbrev w_floor : EReal := Ideal.ofBits .f32 0x2B8CBCCC#32    -- 1e-12
abbrev w_two : EReal := Ideal.ofBits .f32 0x40000000#32      -- 2
abbrev w_count : EReal := Ideal.ofBits .f32 0x4C800000#32    -- 8192²

/-- |A_r|². -/
def sumSq (A : Arr) (r : Fin 8192) : EReal := ∑ k : Fin 512, A (ix2 r k) * A (ix2 r k)
/-- The sum of row r. -/
def sumRow (A : Arr) (r : Fin 8192) : EReal := ∑ k : Fin 512, A (ix2 r k)
/-- A_r · B_q. -/
def dotRows (A B : Arr) (r q : Fin 8192) : EReal := ∑ k : Fin 512, A (ix2 r k) * B (ix2 q k)
/-- ‖A_r − B_r + ε‖₂. -/
def dshift (A B : Arr) (r : Fin 8192) : EReal :=
  Ideal.sqrt (∑ k : Fin 512, ((A (ix2 r k) - B (ix2 r k)) + w_eps) * ((A (ix2 r k) - B (ix2 r k)) + w_eps))

/-- The expanded squared distance, in the reference's order of additions. -/
def sqR (A B : Arr) (r q : Fin 8192) : EReal :=
  (((sumSq A r + sumSq B q) - w_two * dotRows A B r q) + w_2eps * (sumRow A r - sumRow B q)) + w_deps2
/-- The same, in the kernel's order: the row terms and the column terms folded separately. -/
def sqK (A B : Arr) (r q : Fin 8192) : EReal :=
  (((sumSq A r + w_2eps * sumRow A r) + w_deps2) + (sumSq B q - w_2eps * sumRow B q)) - w_two * dotRows A B r q

def distR (A B : Arr) (r q : Fin 8192) : EReal := Ideal.sqrt (max (sqR A B r q) w_floor)
def distK (A B : Arr) (r q : Fin 8192) : EReal := Ideal.sqrt (max (sqK A B r q) w_floor)

/-- The reference's loss of the pair (r, q). -/
def lossR (A P N : Arr) (r q : Fin 8192) : EReal :=
  Ideal.log1p (Ideal.exp (dshift A P r - (if r = q then dshift A N r else distR A P r q)))

/-- The kernel's margin of the pair (r, q) … -/
def marginK (A P N : Arr) (r q : Fin 8192) : EReal :=
  dshift A P r - (if r = q then dshift A N r else distK A P r q)
/-- … and its loss, in the stable form. -/
def lossK (A P N : Arr) (r q : Fin 8192) : EReal :=
  max (marginK A P N r q) 0 + Ideal.log1p (Ideal.exp (0 - max (marginK A P N r q) (-(marginK A P N r q))))

/-- The reference's result. -/
def totalR (A P N : Arr) : EReal := Ideal.div (∑ r : Fin 8192, ∑ q : Fin 8192, lossR A P N r q) w_count
/-- The kernel's result. -/
def totalK (A P N : Arr) : EReal := Ideal.div (∑ r : Fin 8192, ∑ q : Fin 8192, lossK A P N r q) w_count

end Cert.Spec

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowWeights.lean ====
/-
  A linear layer whose weights are kept one ROW per output, and a linear layer masked by a 0/1 factor.

  A layer's weights `w` have shape [N, K]: one row of K coefficients per output.  The layer applied to the rows
  of `x` ([M, K]) is the product `x · wᵀ`, whose (r, j) entry is the sum over k of `x (r, k) · w (j, k)`.
  Two machines compute that entry:

  * a matrix unit's product into a zero accumulator that contracts BOTH operands along their last axis
    (`matmul_rowWeights_apply`), and
  * a general dot product of `x` with the transposed array `wᵀ`, contracting the left operand's last axis
    with the right operand's first (that side is read by the reference's own generated lemmas; here only the
    name `tr w` for the transposed array).

  The second half is the one algebraic law about a factor that is 0 or 1 (`sum_mul_bit`): multiplying every
  term's left factor by it before a sum of products is multiplying the sum by it — for 1 nothing changes, for
  0 both sides are 0, because on the extended reals 0 times anything, infinities included, is 0.  No finiteness
  is needed.  `uitofp_bit`: a one-bit integer converted to a float is such a factor.
-/
import proofs.«151191_j39779987096333_2_alg».proof.Proof.LibRowsTimes

noncomputable section

namespace Cert.RowWeights

open Idealize.ShloMosaic Idealize.ShloMosaic.ValueIdx Cert.Dense

/-- The [K, N] array whose (k, j) entry is `w (j, k)`: weights kept one row per output, read as the right
    factor of a product. -/
def tr {N K : Nat} (w : (⟨2, ![N, K]⟩ : Shape).Idx → EReal) : (⟨2, ![K, N]⟩ : Shape).Idx → EReal :=
  fun i => w (ix2 (i 1 : Fin N) (i 0 : Fin K))

/-- Its (k, j) entry, spelt out. -/
theorem tr_apply {N K : Nat} (w : (⟨2, ![N, K]⟩ : Shape).Idx → EReal) (k : Fin K) (j : Fin N) :
    tr w (ix2 k j) = w (ix2 j k) := rfl

/-- The operand indices of a contraction of an [M, K] array with an [N, K] array along both last axes, at the
    output index `i` and contraction index `q`: (i 0, q) on the left and (i 1, q) on the right. -/
theorem rowWeights_idx {M K N : Nat} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (i : (⟨2, ![M, N]⟩ : Shape).Idx) (q : d.contr.Idx) :
    (d.lhsIdx i q 0).val = (i 0).val ∧ (d.lhsIdx i q 1).val = (q ⟨0, by subst hd; exact Nat.one_pos⟩).val
      ∧ (d.rhsIdx i q 0).val = (i 1).val ∧ (d.rhsIdx i q 1).val = (q ⟨0, by subst hd; exact Nat.one_pos⟩).val := by
  subst hd
  refine ⟨?_, DotDims.lhsIdx_val_of_single _ rfl i q, ?_, DotDims.rhsIdx_val_of_single _ rfl i q⟩
  · unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  · unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl

/-- A matrix unit's product of `x` ([M, K]) and `w` ([N, K]) into the zero accumulator, both contracted along
    their last axis, read at (p, q) on the extended reals: the (p, q) entry of `x · wᵀ`. -/
theorem matmul_rowWeights_apply {M K N : Nat} {φ₁ φ₂ : FTy} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (prec : Option ContractPrecision)
    (x : FVec Ideal ⟨2, ![M, K]⟩ φ₁) (w : FVec Ideal ⟨2, ![N, K]⟩ φ₂) (p : Fin M) (q : Fin N) :
    FloatOps.matmul d prec x w (constant (F := Ideal) ⟨2, ![M, N]⟩ .f32 0x00000000#32) (ix2 p q)
      = rowsTimes x (tr w) (ix2 p q) := by
  have hr : d.contr.rank = 1 := by subst hd; rfl
  have hs : d.contr.size ⟨0, by omega⟩ = K := by subst hd; rfl
  refine (Ideal.matmul_constant_zero_apply d prec x w (ix2 p q)).trans
    (contraction_eq d hr hs x (tr w) x w (ix2 p q) (ix2 p q) (fun k => ?_) (fun k => ?_))
  · obtain ⟨e0, e1, -, -⟩ := rowWeights_idx d wf hd (ix2 p q) ((contrEquiv1 d K hr hs).symm k)
    have hk := contrEquiv1_symm_val d K hr hs k
    refine congrArg x (funext fun a => Fin.ext ?_)
    match a with
    | ⟨0, _⟩ => exact e0
    | ⟨1, _⟩ => exact e1.trans hk
  · obtain ⟨-, -, e2, e3⟩ := rowWeights_idx d wf hd (ix2 p q) ((contrEquiv1 d K hr hs).symm k)
    have hk := contrEquiv1_symm_val d K hr hs k
    refine congrArg w (funext fun a => Fin.ext ?_)
    match a with
    | ⟨0, _⟩ => exact e2
    | ⟨1, _⟩ => exact e3.trans hk

/-- A factor that is 0 or 1, applied to every term's left factor before a sum of products, is the same factor
    applied to the sum. -/
theorem sum_mul_bit {ι : Type} [Fintype ι] (h w : ι → EReal) (μ : EReal) (hμ : μ = 0 ∨ μ = 1) :
    ∑ k, (h k * μ) * w k = (∑ k, h k * w k) * μ := by
  rcases hμ with rfl | rfl
  · simp only [mul_zero, zero_mul, Finset.sum_const_zero]
  · simp only [mul_one]

/-- A one-bit integer converted to a float is 0 or 1. -/
theorem uitofp_bit (φ : FTy) (b : BitVec 1) :
    FloatOps.uitofp (F := Ideal) φ b = 0 ∨ FloatOps.uitofp (F := Ideal) φ b = 1 := by
  show (((b.toNat : ℝ) : EReal)) = 0 ∨ (((b.toNat : ℝ) : EReal)) = 1
  rcases BitVec.eq_zero_or_eq_one b with h | h <;> subst h
  · left; simp
  · right; simp

end Cert.RowWeights

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.KernelEntry.lean ====
/-
  One grid point's update of the running row sums, read at a row, at the ideal values.

  At the point (i, j) the body holds rows 1024·i … of the anchors and of the three per-row vectors, and rows
  512·j … of the positives and of the per-column vector.  Entry (ρ, κ) of its distance tile is
  sqrt (max (ca_ρ + cb_κ − 2 a_ρ·p_κ) 1e-12); the diagonal branch replaces it by the row's negative distance
  where the global row number 1024·i + ρ equals the global column number 512·j + κ (compared as 32-bit words:
  both are below 8192); the margin is dpos_ρ minus that; each row of the output block gains the sum over the 512
  columns of the stable softplus of the margin.  With the blocks identified with the arrays this is
  acc_ρ + ∑_κ lossK (1024·i + ρ) (512·j + κ).
-/
import proofs.«151191_j39779987096333_2_alg».proof.Proof.AccData
import proofs.«151191_j39779987096333_2_alg».proof.Proof.Spec
import proofs.«151191_j39779987096333_2_alg».proof.Proof.LibRowWeights
import proofs.«151191_j39779987096333_2_alg».proof.Proof.LibColumnLayout
import proofs.«151191_j39779987096333_2_alg».proof.Proof.LibChunkSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Affine

set_option maxRecDepth 16384

noncomputable section

namespace Cert.KernelIdeal.Entry

open Idealize.ShloMosaic Idealize.ShloMosaic.ValueIdx
open Cert.KernelIdeal Cert.KernelIdeal.Gen Cert.KernelIdeal.Acc Cert.Spec

/-- The global row of row ρ of row tile I, and the global column of column κ of column tile J. -/
abbrev grow (I : Fin 8) (ρ : Fin 1024) : Fin 8192 := ChunkSum.at_ (n := 8) (m := 1024) (N := 8192) rfl I ρ
abbrev gcol (J : Fin 16) (κ : Fin 512) : Fin 8192 := ChunkSum.at_ (n := 16) (m := 512) (N := 8192) rfl J κ

/-- The stable softplus of a margin, as the kernel spells it. -/
def softK (x : EReal) : EReal := max x 0 + Ideal.log1p (Ideal.exp (0 - max x (-x)))

theorem lossK_eq (A P N : Arr) (r q : Fin 8192) : lossK A P N r q = softK (marginK A P N r q) := rfl

/-! ## Layout operations of the body, at an entry -/

theorem colB (v : Vec Ideal S1024x1 .f32) (ρ : Fin 1024) (κ : Fin 512) :
    broadcastTo S1024x512 (shapeCast S1024x1 v shapeCasts_S1024x1_S1024x1) broadcasts_S1024x1_S1024x512 (ix2 ρ κ)
      = v (ix2 ρ (0 : Fin 1)) :=
  (ColumnLayout.broadcastTo_a1_ab_apply _ broadcasts_S1024x1_S1024x512 ρ κ).trans (congrFun (shapeCast_self v _) _)

theorem colB' (v : FVec Ideal S1024x1 .f32) (ρ : Fin 1024) (κ : Fin 512) :
    broadcastTo S1024x512 v broadcasts_S1024x1_S1024x512 (ix2 ρ κ) = v (ix2 ρ (0 : Fin 1)) :=
  ColumnLayout.broadcastTo_a1_ab_apply _ broadcasts_S1024x1_S1024x512 ρ κ

theorem rowB (v : Vec Ideal S1x512 .f32) (ρ : Fin 1024) (κ : Fin 512) :
    broadcastTo S1024x512 (shapeCast S1x512 v shapeCasts_S1x512_S1x512) broadcasts_S1x512_S1024x512 (ix2 ρ κ)
      = v (ix2 (0 : Fin 1) κ) :=
  (broadcastTo_1b_ab_apply _ broadcasts_S1x512_S1024x512 ρ κ).trans (congrFun (shapeCast_self v _) _)

/-- The matrix unit's product of the anchor tile with the positive tile, both contracted along their 512 features,
    into the zero accumulator: the dot product of row ρ with row κ. -/
theorem mm (x0 : Vec Ideal S1024x512 .bf16) (x1 : Vec Ideal S512x512 .bf16) (ρ : Fin 1024) (κ : Fin 512) :
    matmul (F := Ideal) (φ₁ := .bf16) (φ₂ := .bf16) dot_S1024x512_S512x512_S1024x512_1_1_0_0_n_n none (shapeCast S1024x512 x0 shapeCasts_S1024x512_S1024x512)
      (shapeCast S512x512 x1 shapeCasts_S512x512_S512x512) (constant (F := Ideal) S1024x512 .f32 0x00000000#32) (ix2 ρ κ)
      = ∑ k : Fin 512, x0 (ix2 ρ k) * x1 (ix2 κ k) := by
  rw [shapeCast_self, shapeCast_self]
  exact (Cert.RowWeights.matmul_rowWeights_apply dot_S1024x512_S512x512_S1024x512_1_1_0_0_n_n _ rfl none x0 x1 ρ κ).trans rfl

/-! ## The distance tile -/

theorem dist_apply (x0 : Vec Ideal S1024x512 .bf16) (x1 : Vec Ideal S512x512 .bf16) (x2 : Vec Ideal S1024x1 .f32)
    (x3 : Vec Ideal S1x512 .f32) (ρ : Fin 1024) (κ : Fin 512) :
    k0_pay3 (F := Ideal) x0 x1 x2 x3 (ix2 ρ κ)
      = Ideal.sqrt (max ((x2 (ix2 ρ (0 : Fin 1)) + x3 (ix2 (0 : Fin 1) κ))
          - w_two * ∑ k : Fin 512, x0 (ix2 ρ k) * x1 (ix2 κ k)) w_floor) := by
  unfold k0_pay3
  refine congrArg Ideal.sqrt (congrArg (fun z => max z w_floor) ?_)
  exact congrArg₂ (fun a b => a - b) (congrArg₂ (fun a b => a + b) (colB x2 ρ κ) (rowB x3 ρ κ))
    (congrArg (fun z => w_two * z) (mm x0 x1 ρ κ))

/-! ## The softplus tile and its row sums -/

theorem soft_tile (d : FVec Ideal S1024x512 .f32) (ρ : Fin 1024) (κ : Fin 512) :
    addf (maximumf d (broadcast S1024x512 (Scalar.ofBits (F := Ideal) .f32 0x00000000#32)))
      (log1p (exp (subf (broadcast S1024x512 (Scalar.ofBits (F := Ideal) .f32 0x00000000#32)) (absf d)))) (ix2 ρ κ)
      = softK (d (ix2 ρ κ)) := by
  show max (d (ix2 ρ κ)) (Ideal.ofBits .f32 0x00000000#32)
      + Ideal.log1p (Ideal.exp (Ideal.ofBits .f32 0x00000000#32 - max (d (ix2 ρ κ)) (-(d (ix2 ρ κ))))) = _
  rw [Ideal.ofBits_zero_f32]; rfl

theorem liftRow (ρ : Fin 1024) (κ : Fin 512) : reduces_S1024x512_S1024.lift (ix1 ρ) κ = ix2 ρ κ :=
  funext fun a => Fin.ext (by match a with | ⟨0, _⟩ => rfl | ⟨1, _⟩ => rfl)

/-- A row of the block gains the sum over the tile's 512 columns. -/
theorem rowsum_apply (v : FVec Ideal S1024x512 .f32) (acc : Vec Ideal S1024x1 .f32) (ρ : Fin 1024) :
    addf (shapeCast S1024x1 acc shapeCasts_S1024x1_S1024x1)
      (shapeCast S1024x1 (multiReduction (F := Ideal) .add [1] S1024 v 0x00000000#32 reduces_S1024x512_S1024 (.inl rfl) rfl)
        shapeCasts_S1024_S1024x1) (ix2 ρ (0 : Fin 1))
      = acc (ix2 ρ (0 : Fin 1)) + ∑ κ : Fin 512, v (ix2 ρ κ) := by
  refine congrArg₂ (fun a b => a + b) (congrFun (shapeCast_self acc _) _) ?_
  refine (ColumnLayout.shapeCast_a_a1_apply _ shapeCasts_S1024_S1024x1 ρ 0).trans ?_
  refine (Ideal.multiReduction_add_single v 0x00000000#32 reduces_S1024x512_S1024 _ _ (ix1 ρ)).trans ?_
  exact Finset.sum_congr rfl fun κ _ => congrArg v (liftRow ρ κ)

/-! ## The two branches -/

theorem plain_apply (v20 : FVec Ideal S1024x512 .f32) (v22 : FVec Ideal S1024x1 .f32) (acc : Vec Ideal S1024x1 .f32)
    (ρ : Fin 1024) :
    k0_pay1 (F := Ideal) v20 v22 acc (ix2 ρ (0 : Fin 1))
      = acc (ix2 ρ (0 : Fin 1)) + ∑ κ : Fin 512, softK (v22 (ix2 ρ (0 : Fin 1)) - v20 (ix2 ρ κ)) := by
  unfold k0_pay1
  refine (rowsum_apply _ acc ρ).trans ?_
  refine congrArg (fun z => acc (ix2 ρ (0 : Fin 1)) + z) (Finset.sum_congr rfl fun κ _ => ?_)
  refine (soft_tile _ ρ κ).trans (congrArg softK ?_)
  exact congrArg (fun z => z - v20 (ix2 ρ κ)) (colB' v22 ρ κ)

/-- The diagonal mask at an entry: the word of "global row = global column". -/
def maskBit (i : grid0.Coords) (ρ : Fin 1024) (κ : Fin 512) : BitVec 1 :=
  IntOp.cmpi .eq (IntOp.addi (Scalar.muli (BitVec.ofNat 32 (i 0).val) 1024#32) (BitVec.ofNat 32 ρ.val))
    (IntOp.addi (Scalar.muli (BitVec.ofNat 32 (i 1).val) 512#32) (BitVec.ofNat 32 κ.val))

theorem diag_apply (i : grid0.Coords) (x0 : Vec Ideal S1024x512 .bf16) (x1 : Vec Ideal S512x512 .bf16)
    (x2 : Vec Ideal S1024x1 .f32) (x3 : Vec Ideal S1x512 .f32) (x4 x5 acc : Vec Ideal S1024x1 .f32) (ρ : Fin 1024) :
    k0_pay5 (F := Ideal) i x0 x1 x2 x3 x4 x5 acc (ix2 ρ (0 : Fin 1))
      = acc (ix2 ρ (0 : Fin 1)) + ∑ κ : Fin 512, softK (x4 (ix2 ρ (0 : Fin 1))
          - Scalar.select (maskBit i ρ κ) (x5 (ix2 ρ (0 : Fin 1))) (k0_pay3 (F := Ideal) x0 x1 x2 x3 (ix2 ρ κ))) := by
  unfold k0_pay5
  refine (rowsum_apply _ acc ρ).trans ?_
  refine congrArg (fun z => acc (ix2 ρ (0 : Fin 1)) + z) (Finset.sum_congr rfl fun κ _ => ?_)
  refine (soft_tile _ ρ κ).trans (congrArg softK ?_)
  refine congrArg₂ (fun a b => a - b) (colB x4 ρ κ) ?_
  refine congrArg₂ (fun (c : BitVec 1) (a : EReal) => Scalar.select c a (k0_pay3 (F := Ideal) x0 x1 x2 x3 (ix2 ρ κ))) ?_ ?_
  · show IntOp.cmpi .eq (IntOp.addi _ (iota .tc S1024x512 32 [0] iota_S1024x512_d0_w32 (ix2 ρ κ)))
        (IntOp.addi _ (iota .tc S1024x512 32 [1] iota_S1024x512_d1_w32 (ix2 ρ κ))) = _
    rw [iota_single_apply, iota_single_apply]; rfl
  · exact (ColumnLayout.broadcastTo_a1_ab_apply _ broadcasts_S1024x1_S1024x512 ρ κ).trans
      ((congrFun (shapeCast_self _ _) _).trans (congrFun (shapeCast_self x5 _) _))

/-! ## The mask as a statement about the global row and column -/

theorem maskBit_iff (i : grid0.Coords) (I : Fin 8) (J : Fin 16) (hI : (i 0).val = I.val) (hJ : (i 1).val = J.val)
    (ρ : Fin 1024) (κ : Fin 512) : maskBit i ρ κ = 1#1 ↔ grow I ρ = gcol J κ := by
  unfold maskBit
  rw [IntOp.cmpi_eq, hI, hJ]
  unfold IntOp.addi Scalar.muli IntOp.muli
  rw [← BitVec.toNat_inj]
  simp only [BitVec.toNat_add, BitVec.toNat_mul, BitVec.toNat_ofNat, Nat.reducePow, Nat.reduceMod]
  have h1 := I.isLt; have h2 := J.isLt; have h3 := ρ.isLt; have h4 := κ.isLt
  constructor
  · intro h
    apply Fin.ext
    show I.val * 1024 + ρ.val = J.val * 512 + κ.val
    omega
  · intro h
    have h5 : I.val * 1024 + ρ.val = J.val * 512 + κ.val := congrArg Fin.val h
    omega

theorem select_maskBit {α : Type} (i : grid0.Coords) (I : Fin 8) (J : Fin 16) (hI : (i 0).val = I.val)
    (hJ : (i 1).val = J.val) (ρ : Fin 1024) (κ : Fin 512) (a b : α) :
    Scalar.select (maskBit i ρ κ) a b = if grow I ρ = gcol J κ then a else b := by
  have h := maskBit_iff i I J hI hJ ρ κ
  unfold Scalar.select
  by_cases hrq : grow I ρ = gcol J κ
  · rw [if_pos hrq]; exact if_pos (h.mpr hrq)
  · rw [if_neg hrq]; exact if_neg (fun hh => hrq (h.mp hh))

/-! ## Facts about the grid, decided over its 128 points -/

/-- Point t is (t / 16, t % 16). -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The column tile j meets the diagonal span of the row tile i exactly when j / 2 = i. -/
theorem cond2_iff : ∀ t : Fin cfg0.N, k0_cond2 (grid0.coords t) = 1#1 ↔ (t.val % 16) / 2 = t.val / 16 :=
  (by decide +kernel : ∀ t : Fin grid0.N, k0_cond2 (grid0.coords t) = 1#1 ↔ (t.val % 16) / 2 = t.val / 16)

/-- Off those tiles no entry is on the diagonal. -/
theorem offdiag (I : Fin 8) (J : Fin 16) (h : ¬ J.val / 2 = I.val) (ρ : Fin 1024) (κ : Fin 512) : grow I ρ ≠ gcol J κ := by
  intro hh
  have h5 : I.val * 1024 + ρ.val = J.val * 512 + κ.val := congrArg Fin.val hh
  have h3 := ρ.isLt; have h4 := κ.isLt
  omega

/-! ## The update at an entry, the blocks identified with the arrays -/

/-- The six input blocks of the point (I, J) are the corresponding rows of the arrays the windows stage. -/
structure Blocks (A P N : Arr) (I : Fin 8) (J : Fin 16) (x0 : Vec Ideal S1024x512 .bf16) (x1 : Vec Ideal S512x512 .bf16)
    (x2 : Vec Ideal S1024x1 .f32) (x3 : Vec Ideal S1x512 .f32) (x4 x5 : Vec Ideal S1024x1 .f32) : Prop where
  h0 : ∀ (ρ : Fin 1024) (k : Fin 512), x0 (ix2 ρ k) = A (ix2 (grow I ρ) k)
  h1 : ∀ (κ : Fin 512) (k : Fin 512), x1 (ix2 κ k) = P (ix2 (gcol J κ) k)
  h2 : ∀ ρ : Fin 1024, x2 (ix2 ρ (0 : Fin 1)) = (sumSq A (grow I ρ) + w_2eps * sumRow A (grow I ρ)) + w_deps2
  h3 : ∀ κ : Fin 512, x3 (ix2 (0 : Fin 1) κ) = sumSq P (gcol J κ) - w_2eps * sumRow P (gcol J κ)
  h4 : ∀ ρ : Fin 1024, x4 (ix2 ρ (0 : Fin 1)) = dshift A P (grow I ρ)
  h5 : ∀ ρ : Fin 1024, x5 (ix2 ρ (0 : Fin 1)) = dshift A N (grow I ρ)

theorem dist_blocks {A P N : Arr} {I : Fin 8} {J : Fin 16} {x0 : Vec Ideal S1024x512 .bf16} {x1 : Vec Ideal S512x512 .bf16}
    {x2 : Vec Ideal S1024x1 .f32} {x3 : Vec Ideal S1x512 .f32} {x4 x5 : Vec Ideal S1024x1 .f32}
    (hb : Blocks A P N I J x0 x1 x2 x3 x4 x5) (ρ : Fin 1024) (κ : Fin 512) :
    k0_pay3 (F := Ideal) x0 x1 x2 x3 (ix2 ρ κ) = distK A P (grow I ρ) (gcol J κ) := by
  rw [dist_apply, hb.h2, hb.h3]
  unfold distK sqK dotRows
  simp only [hb.h0, hb.h1]

theorem step_apply (A P N : Arr) (t : Fin cfg0.N) (I : Fin 8) (J : Fin 16) (hI : I.val = t.val / 16) (hJ : J.val = t.val % 16)
    (x0 : Vec Ideal S1024x512 .bf16) (x1 : Vec Ideal S512x512 .bf16) (x2 : Vec Ideal S1024x1 .f32)
    (x3 : Vec Ideal S1x512 .f32) (x4 x5 acc : Vec Ideal S1024x1 .f32) (hb : Blocks A P N I J x0 x1 x2 x3 x4 x5)
    (ρ : Fin 1024) :
    step (F := Ideal) (grid0.coords t) x0 x1 x2 x3 x4 x5 acc (ix2 ρ (0 : Fin 1))
      = acc (ix2 ρ (0 : Fin 1)) + ∑ κ : Fin 512, lossK A P N (grow I ρ) (gcol J κ) := by
  have hc := coords_val t
  have hI' : ((grid0.coords t) 0).val = I.val := hc.1.trans hI.symm
  have hJ' : ((grid0.coords t) 1).val = J.val := hc.2.trans hJ.symm
  unfold step
  by_cases h2 : k0_cond2 (grid0.coords t) = 1#1
  · rw [if_pos h2, diag_apply]
    refine congrArg (fun z => acc (ix2 ρ (0 : Fin 1)) + z) (Finset.sum_congr rfl fun κ _ => ?_)
    rw [lossK_eq, select_maskBit (grid0.coords t) I J hI' hJ' ρ κ, dist_blocks hb ρ κ, hb.h4, hb.h5]
    rfl
  · rw [if_neg h2, plain_apply]
    refine congrArg (fun z => acc (ix2 ρ (0 : Fin 1)) + z) (Finset.sum_congr rfl fun κ _ => ?_)
    have hne : grow I ρ ≠ gcol J κ := offdiag I J (fun h => h2 ((cond2_iff t).mpr (by rw [← hI, ← hJ]; exact h))) ρ κ
    rw [lossK_eq, dist_blocks hb ρ κ]
    unfold marginK
    rw [if_neg hne]
    show softK (shapeCast S1024x1 x4 shapeCasts_S1024x1_S1024x1 (ix2 ρ (0 : Fin 1)) - _) = _
    rw [shapeCast_self, hb.h4]

end Cert.KernelIdeal.Entry

end
-- ==== Proof.Operands.lean ====
/-
  The six arrays the pipeline's input windows stage, as the region finds them, read at an index at the ideal values.
  Each is computed from the three argument arrays (anchor, positives, negatives, each 8192 rows of 512 entries) by
  host operations that run before the region:
    windows 0, 1   the anchor and the positives after a change of float format, which is the identity on extended reals;
    window 2       per anchor row, (sum of squares) + w₁ · (sum) + w₂, kept as a column [8192, 1];
    window 3       per positive row, (sum of squares) − w₁ · (sum), kept as a row [1, 8192];
    windows 4, 5   per row, sqrt of the sum of squares of (anchor − positive + w₀), resp. (anchor − negative + w₀), as columns;
  with w₀, w₁, w₂ the f32 words 0x358637BD, 0x360637BD, 0x300CBCCC, kept as words throughout. The row sums start from
  the zero word, whose value is 0. First the layout steps are read at an index over the literal shapes (a row sum, a
  vector as a column, a column as a row, a repeated scalar); then the three kinds of staged vector are written as
  functions of the argument arrays and read at an index; last, each staged buffer is identified with its function.
-/
import proofs.«151191_j39779987096333_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The host's layout steps at literal shapes, read at an index -/

/-- The host's sum along the second axis, started from the zero word, read at row `r`: the sum of the row. -/
theorem rowSum_apply (x : S8192x512.Idx → EReal) (h' : S8192x512.ReducesTo [1] S8192) (hu : 0 < S_.numel) (r : Fin 8192) :
    Host.reduceAdd (F := Ideal) (φ := .f32) x (constant (F := Ideal) S_ .f32 0x00000000#32) h' hu (ix1 r)
      = ∑ k : Fin 512, x (ix2 r k) := by
  simp only [Host.reduceAdd, Ideal.hostReduceAdd_def]
  rw [Ideal.hostReduceAdd_single h' (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-- A vector of 8192 entries laid out as a column: entry `r` sits at `(r, 0)`. -/
theorem column_apply (y : S8192.Idx → EReal) (h : S8192.BroadcastsInDim S8192x1 (![0] : Fin 1 → Fin S8192x1.rank))
    (r : Fin 8192) (u : Fin 1) : broadcastInDim S8192x1 ![0] h y (ix2 r u) = y (ix1 r) :=
  broadcastInDim_apply _ h y _ _ (fun a => match a with
    | ⟨0, _⟩ => by show r.val = if (8192 : Nat) = 1 then 0 else r.val; rw [if_neg (by decide)])

/-- A column of 8192 entries reshaped into a row: the entry at `(0, q)` is the column's at `(q, 0)`. -/
theorem rowOfColumn_apply (z : S8192x1.Idx → EReal) (h : S8192x1.ShapeCasts S1x8192) (q : Fin 8192) (u : Fin 1) :
    shapeCast S1x8192 z h (ix2 u q) = z (ix2 q (0 : Fin 1)) :=
  shapeCast_apply z h _ _ (by
    have hu : u.val = 0 := by omega
    rw [Shape.rowMajor_val_two, Shape.rowMajor_val_two]
    show q.val * 1 + 0 = u.val * 8192 + q.val
    omega)

/-- A scalar word repeated over any shape reads as that word's value everywhere. -/
theorem splat_apply {t : Shape} (w : BitVec 32) (h : S_.BroadcastsInDim t (![] : Fin 0 → Fin t.rank)) (i : t.Idx) :
    broadcastInDim t ![] h (constant (F := Ideal) S_ .f32 w) i = Ideal.ofBits .f32 w :=
  (broadcastInDim_apply _ h (constant (F := Ideal) S_ .f32 w) i (fun a => a.elim0) (fun a => a.elim0)).trans rfl

/-! ## The three kinds of staged vectors, as functions of the argument arrays -/

/-- Row by row, the square root of the sum of the squares of `x − y + ε` (ε the word `0x358637BD`), as a column. -/
def distColumn (x y : S8192x512.Idx → EReal) : S8192x1.Idx → EReal :=
  Host.sqrt (F := Ideal) (φ := .f32) (broadcastInDim S8192x1 ![0] Gen.bcast_S8192_S8192x1_0
    (Host.reduceAdd (F := Ideal) (φ := .f32)
      (mulf (F := Ideal) (φ := .f32)
        (addf (F := Ideal) (φ := .f32) (subf (F := Ideal) (φ := .f32) x y)
          (broadcastInDim S8192x512 ![] Gen.bcast_S_S8192x512 (constant (F := Ideal) S_ .f32 0x358637BD#32)))
        (addf (F := Ideal) (φ := .f32) (subf (F := Ideal) (φ := .f32) x y)
          (broadcastInDim S8192x512 ![] Gen.bcast_S_S8192x512 (constant (F := Ideal) S_ .f32 0x358637BD#32))))
      (constant (F := Ideal) S_ .f32 0x00000000#32) Gen.reducesTo_S8192x512_S8192_d1 Gen.h_S_))

/-- Row by row, the sum of squares of `x` plus the word `0x360637BD` times the sum of `x`, plus the word `0x300CBCCC`, as a column. -/
def normColumn (x : S8192x512.Idx → EReal) : S8192x1.Idx → EReal :=
  addf (F := Ideal) (φ := .f32)
    (addf (F := Ideal) (φ := .f32)
      (broadcastInDim S8192x1 ![0] Gen.bcast_S8192_S8192x1_0
        (Host.reduceAdd (F := Ideal) (φ := .f32) (mulf (F := Ideal) (φ := .f32) x x)
          (constant (F := Ideal) S_ .f32 0x00000000#32) Gen.reducesTo_S8192x512_S8192_d1 Gen.h_S_))
      (mulf (F := Ideal) (φ := .f32)
        (broadcastInDim S8192x1 ![] Gen.bcast_S_S8192x1 (constant (F := Ideal) S_ .f32 0x360637BD#32))
        (broadcastInDim S8192x1 ![0] Gen.bcast_S8192_S8192x1_0
          (Host.reduceAdd (F := Ideal) (φ := .f32) x
            (constant (F := Ideal) S_ .f32 0x00000000#32) Gen.reducesTo_S8192x512_S8192_d1 Gen.h_S_))))
    (broadcastInDim S8192x1 ![] Gen.bcast_S_S8192x1 (constant (F := Ideal) S_ .f32 0x300CBCCC#32))

/-- Row by row, the sum of squares of `y` minus the word `0x360637BD` times the sum of `y`, laid out as a row. -/
def normRow (y : S8192x512.Idx → EReal) : S1x8192.Idx → EReal :=
  subf (F := Ideal) (φ := .f32)
    (shapeCast S1x8192
      (broadcastInDim S8192x1 ![0] Gen.bcast_S8192_S8192x1_0
        (Host.reduceAdd (F := Ideal) (φ := .f32) (mulf (F := Ideal) (φ := .f32) y y)
          (constant (F := Ideal) S_ .f32 0x00000000#32) Gen.reducesTo_S8192x512_S8192_d1 Gen.h_S_))
      Gen.shapeCasts_S8192x1_S1x8192)
    (mulf (F := Ideal) (φ := .f32)
      (broadcastInDim S1x8192 ![] Gen.bcast_S_S1x8192 (constant (F := Ideal) S_ .f32 0x360637BD#32))
      (shapeCast S1x8192
        (broadcastInDim S8192x1 ![0] Gen.bcast_S8192_S8192x1_0
          (Host.reduceAdd (F := Ideal) (φ := .f32) y
            (constant (F := Ideal) S_ .f32 0x00000000#32) Gen.reducesTo_S8192x512_S8192_d1 Gen.h_S_))
        Gen.shapeCasts_S8192x1_S1x8192))

theorem distColumn_apply (x y : S8192x512.Idx → EReal) (r : Fin 8192) :
    distColumn x y (ix2 r (0 : Fin 1))
      = Ideal.sqrt (∑ k : Fin 512, ((x (ix2 r k) - y (ix2 r k)) + Ideal.ofBits .f32 0x358637BD#32)
          * ((x (ix2 r k) - y (ix2 r k)) + Ideal.ofBits .f32 0x358637BD#32)) := by
  unfold distColumn
  show Ideal.sqrt (broadcastInDim (s := S8192) S8192x1 ![0] _ _ (ix2 r (0 : Fin 1))) = _
  rw [column_apply, rowSum_apply]
  refine congrArg Ideal.sqrt (Finset.sum_congr rfl fun k _ => ?_)
  show (x (ix2 r k) - y (ix2 r k) + broadcastInDim (s := S_) S8192x512 ![] _ _ (ix2 r k))
      * (x (ix2 r k) - y (ix2 r k) + broadcastInDim (s := S_) S8192x512 ![] _ _ (ix2 r k)) = _
  rw [splat_apply]

theorem normColumn_apply (x : S8192x512.Idx → EReal) (r : Fin 8192) :
    normColumn x (ix2 r (0 : Fin 1))
      = ((∑ k : Fin 512, x (ix2 r k) * x (ix2 r k))
          + Ideal.ofBits .f32 0x360637BD#32 * (∑ k : Fin 512, x (ix2 r k)))
        + Ideal.ofBits .f32 0x300CBCCC#32 := by
  unfold normColumn
  show (broadcastInDim (s := S8192) S8192x1 ![0] _ _ (ix2 r (0 : Fin 1))
        + broadcastInDim (s := S_) S8192x1 ![] _ _ (ix2 r (0 : Fin 1)) * broadcastInDim (s := S8192) S8192x1 ![0] _ _ (ix2 r (0 : Fin 1)))
      + broadcastInDim (s := S_) S8192x1 ![] _ _ (ix2 r (0 : Fin 1)) = _
  rw [column_apply, column_apply, rowSum_apply, rowSum_apply, splat_apply, splat_apply]
  rfl

theorem normRow_apply (y : S8192x512.Idx → EReal) (q : Fin 8192) :
    normRow y (ix2 (0 : Fin 1) q)
      = (∑ k : Fin 512, y (ix2 q k) * y (ix2 q k))
          - Ideal.ofBits .f32 0x360637BD#32 * (∑ k : Fin 512, y (ix2 q k)) := by
  unfold normRow
  show shapeCast (s := S8192x1) S1x8192 _ _ (ix2 (0 : Fin 1) q)
      - broadcastInDim (s := S_) S1x8192 ![] _ _ (ix2 (0 : Fin 1) q) * shapeCast (s := S8192x1) S1x8192 _ _ (ix2 (0 : Fin 1) q) = _
  rw [rowOfColumn_apply, rowOfColumn_apply, column_apply, column_apply, rowSum_apply, rowSum_apply, splat_apply]
  rfl

/-! ## What the region finds in the six staged arrays -/

/-- Window 0's array: the anchor, its format change the identity on extended reals. -/
theorem opnd0 : (V m c main_v34 : S8192x512.Idx → EReal) = m ((c : Thread nD τ).loc main_arg0) := by
  show StableHlo.after hostOps0 (fun b => m (c, b)) (Proc.devRef .tc main_v34) = _
  after_results_simp
  rfl

/-- Window 1's array: the positives, likewise. -/
theorem opnd1 : (V m c main_v35 : S8192x512.Idx → EReal) = m ((c : Thread nD τ).loc main_arg1) := by
  show StableHlo.after hostOps0 (fun b => m (c, b)) (Proc.devRef .tc main_v35) = _
  after_results_simp
  rfl

theorem val_main_v23 : (V m c main_v23 : S8192x1.Idx → EReal) = normColumn (m ((c : Thread nD τ).loc main_arg0)) := by
  show StableHlo.after hostOps0 (fun b => m (c, b)) (Proc.devRef .tc main_v23) = _
  after_results_simp
  rfl

theorem val_main_v33 : (V m c main_v33 : S1x8192.Idx → EReal) = normRow (m ((c : Thread nD τ).loc main_arg1)) := by
  show StableHlo.after hostOps0 (fun b => m (c, b)) (Proc.devRef .tc main_v33) = _
  after_results_simp
  rfl

theorem val_main_v6 : (V m c main_v6 : S8192x1.Idx → EReal)
    = distColumn (m ((c : Thread nD τ).loc main_arg0)) (m ((c : Thread nD τ).loc main_arg1)) := by
  show StableHlo.after hostOps0 (fun b => m (c, b)) (Proc.devRef .tc main_v6) = _
  after_results_simp
  rfl

theorem val_main_v13 : (V m c main_v13 : S8192x1.Idx → EReal)
    = distColumn (m ((c : Thread nD τ).loc main_arg0)) (m ((c : Thread nD τ).loc main_arg2)) := by
  show StableHlo.after hostOps0 (fun b => m (c, b)) (Proc.devRef .tc main_v13) = _
  after_results_simp
  rfl

/-! ## The staged arrays at an index -/

/-- The anchor array as launched, as a function to the extended reals. -/
abbrev A0 : S8192x512.Idx → EReal := m ((c : Thread nD τ).loc main_arg0)
/-- The positives array as launched. -/
abbrev A1 : S8192x512.Idx → EReal := m ((c : Thread nD τ).loc main_arg1)
/-- The negatives array as launched. -/
abbrev A2 : S8192x512.Idx → EReal := m ((c : Thread nD τ).loc main_arg2)

/-- Window 2's array at `(r, 0)`: the anchor row's sum of squares, plus the word `0x360637BD` times the row's sum, plus
    the word `0x300CBCCC`. -/
theorem opnd2 (r : Fin 8192) :
    (V m c main_v23 : S8192x1.Idx → EReal) (ix2 r (0 : Fin 1))
      = ((∑ k : Fin 512, A0 m c (ix2 r k) * A0 m c (ix2 r k))
          + Ideal.ofBits .f32 0x360637BD#32 * (∑ k : Fin 512, A0 m c (ix2 r k)))
        + Ideal.ofBits .f32 0x300CBCCC#32 :=
  (congrFun (val_main_v23 m c) (ix2 r (0 : Fin 1))).trans (normColumn_apply _ r)

/-- Window 3's array at `(0, q)`: the positive row `q`'s sum of squares minus the word `0x360637BD` times the row's sum. -/
theorem opnd3 (q : Fin 8192) :
    (V m c main_v33 : S1x8192.Idx → EReal) (ix2 (0 : Fin 1) q)
      = (∑ k : Fin 512, A1 m c (ix2 q k) * A1 m c (ix2 q k))
          - Ideal.ofBits .f32 0x360637BD#32 * (∑ k : Fin 512, A1 m c (ix2 q k)) :=
  (congrFun (val_main_v33 m c) (ix2 (0 : Fin 1) q)).trans (normRow_apply _ q)

/-- Window 4's array at `(r, 0)`: the distance of anchor row `r` to positive row `r`, shifted by the word `0x358637BD`. -/
theorem opnd4 (r : Fin 8192) :
    (V m c main_v6 : S8192x1.Idx → EReal) (ix2 r (0 : Fin 1))
      = Ideal.sqrt (∑ k : Fin 512, ((A0 m c (ix2 r k) - A1 m c (ix2 r k)) + Ideal.ofBits .f32 0x358637BD#32)
          * ((A0 m c (ix2 r k) - A1 m c (ix2 r k)) + Ideal.ofBits .f32 0x358637BD#32)) :=
  (congrFun (val_main_v6 m c) (ix2 r (0 : Fin 1))).trans (distColumn_apply _ _ r)

/-- Window 5's array at `(r, 0)`: the same distance to negative row `r`. -/
theorem opnd5 (r : Fin 8192) :
    (V m c main_v13 : S8192x1.Idx → EReal) (ix2 r (0 : Fin 1))
      = Ideal.sqrt (∑ k : Fin 512, ((A0 m c (ix2 r k) - A2 m c (ix2 r k)) + Ideal.ofBits .f32 0x358637BD#32)
          * ((A0 m c (ix2 r k) - A2 m c (ix2 r k)) + Ideal.ofBits .f32 0x358637BD#32)) :=
  (congrFun (val_main_v13 m c) (ix2 r (0 : Fin 1))).trans (distColumn_apply _ _ r)

/-- The six input windows' arrays are these six buffers. -/
theorem arrRef_eq : Pipeline.arrRef spec0 0 = main_v34 ∧ Pipeline.arrRef spec0 1 = main_v35 ∧ Pipeline.arrRef spec0 2 = main_v23
    ∧ Pipeline.arrRef spec0 3 = main_v33 ∧ Pipeline.arrRef spec0 4 = main_v6 ∧ Pipeline.arrRef spec0 5 = main_v13 :=
  ⟨rfl, rfl, rfl, rfl, rfl, rfl⟩

end Cert.KernelIdeal.Operands

end
-- ==== Proof.KernelArray.lean ====
/-
  The array the pallas_call leaves, and the kernel's result.

  Row tile I is worked on by the 16 consecutive points 16·I … 16·I + 15; after the point (I, J) row ρ of the
  output block holds the sum, over the column tiles 0 … J, of that tile's 512 losses of the global row
  1024·I + ρ (induction on the point: the first point of a row tile starts from zero, every other from what the
  point before left).  The block is written back at the last of them, when it holds the row's sum over all 8192
  columns; the sixteen-times-eight written blocks tile the [8192, 1] array, which therefore ends at the row sums
  of `lossK`.  The host then adds the 8192 rows and divides by the word of 8192²: `Spec.totalK`.
-/
import proofs.«151191_j39779987096333_2_alg».proof.Proof.AccData
import proofs.«151191_j39779987096333_2_alg».proof.Proof.KernelEntry
import proofs.«151191_j39779987096333_2_alg».proof.Proof.Operands
import proofs.«151191_j39779987096333_2_alg».proof.Proof.Spec
import proofs.«151191_j39779987096333_2_alg».proof.Proof.LibChunkSum
import Idealize.ShloMosaic.Lib.Pipeline.Value
import Idealize.ShloMosaic.Lib.StableHlo.Run

set_option maxRecDepth 16384

noncomputable section

namespace Cert.KernelIdeal.RowSums

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Acc Cert.KernelIdeal.Entry Cert.KernelIdeal.Operands Cert.Spec

variable (m : (ℓ : Loc nD τ sig) → Buf (Elt Ideal) ℓ) (c : Dev nD)

/-! ## The windows' index maps, decided over the grid -/

theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

/-! ## Where a block's entry sits in its array -/

theorem emb0 (t : Fin cfg0.N) (I : Fin 8) (hI : I.val = t.val / 16) (ρ : Fin 1024) (k : Fin 512) :
    ((cfg0.win 0).blk t).view.emb (ix2 ρ k) = ix2 (grow I ρ) k := by
  obtain ⟨e0, e1, -⟩ := idx_facts t
  funext a; apply Fin.ext
  match a with
  | ⟨0, _⟩ => show win0_0.index t (0 : Fin 2) * 1024 + 1 * ρ.val = I.val * 1024 + ρ.val; omega
  | ⟨1, _⟩ => show win0_0.index t (1 : Fin 2) * 512 + 1 * k.val = k.val; omega

theorem emb1 (t : Fin cfg0.N) (J : Fin 16) (hJ : J.val = t.val % 16) (κ : Fin 512) (k : Fin 512) :
    ((cfg0.win 1).blk t).view.emb (ix2 κ k) = ix2 (gcol J κ) k := by
  obtain ⟨-, -, e0, e1, -⟩ := idx_facts t
  funext a; apply Fin.ext
  match a with
  | ⟨0, _⟩ => show win0_1.index t (0 : Fin 2) * 512 + 1 * κ.val = J.val * 512 + κ.val; omega
  | ⟨1, _⟩ => show win0_1.index t (1 : Fin 2) * 512 + 1 * k.val = k.val; omega

theorem emb2 (t : Fin cfg0.N) (I : Fin 8) (hI : I.val = t.val / 16) (ρ : Fin 1024) :
    ((cfg0.win 2).blk t).view.emb (ix2 ρ (0 : Fin 1)) = ix2 (grow I ρ) (0 : Fin 1) := by
  obtain ⟨-, -, -, -, e0, e1, -⟩ := idx_facts t
  funext a; apply Fin.ext
  match a with
  | ⟨0, _⟩ => show win0_2.index t (0 : Fin 2) * 1024 + 1 * ρ.val = I.val * 1024 + ρ.val; omega
  | ⟨1, _⟩ => show win0_2.index t (1 : Fin 2) * 1 + 1 * 0 = 0; omega

theorem emb3 (t : Fin cfg0.N) (J : Fin 16) (hJ : J.val = t.val % 16) (κ : Fin 512) :
    ((cfg0.win 3).blk t).view.emb (ix2 (0 : Fin 1) κ) = ix2 (0 : Fin 1) (gcol J κ) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 512 + 1 * κ.val = J.val * 512 + κ.val; omega

theorem emb4 (t : Fin cfg0.N) (I : Fin 8) (hI : I.val = t.val / 16) (ρ : Fin 1024) :
    ((cfg0.win 4).blk t).view.emb (ix2 ρ (0 : Fin 1)) = ix2 (grow I ρ) (0 : Fin 1) := by
  obtain ⟨-, -, -, -, -, -, -, -, e0, e1, -⟩ := idx_facts t
  funext a; apply Fin.ext
  match a with
  | ⟨0, _⟩ => show win0_4.index t (0 : Fin 2) * 1024 + 1 * ρ.val = I.val * 1024 + ρ.val; omega
  | ⟨1, _⟩ => show win0_4.index t (1 : Fin 2) * 1 + 1 * 0 = 0; omega

theorem emb5 (t : Fin cfg0.N) (I : Fin 8) (hI : I.val = t.val / 16) (ρ : Fin 1024) :
    ((cfg0.win 5).blk t).view.emb (ix2 ρ (0 : Fin 1)) = ix2 (grow I ρ) (0 : Fin 1) := by
  obtain ⟨-, -, -, -, -, -, -, -, -, -, e0, e1, -⟩ := idx_facts t
  funext a; apply Fin.ext
  match a with
  | ⟨0, _⟩ => show win0_5.index t (0 : Fin 2) * 1024 + 1 * ρ.val = I.val * 1024 + ρ.val; omega
  | ⟨1, _⟩ => show win0_5.index t (1 : Fin 2) * 1 + 1 * 0 = 0; omega

theorem emb6 (t : Fin cfg0.N) (I : Fin 8) (hI : I.val = t.val / 16) (ρ : Fin 1024) :
    ((cfg0.win 6).blk t).view.emb (ix2 ρ (0 : Fin 1)) = ix2 (grow I ρ) (0 : Fin 1) := by
  obtain ⟨-, -, -, -, -, -, -, -, -, -, -, -, e0, e1⟩ := idx_facts t
  funext a; apply Fin.ext
  match a with
  | ⟨0, _⟩ => show win0_6.index t (0 : Fin 2) * 1024 + 1 * ρ.val = I.val * 1024 + ρ.val; omega
  | ⟨1, _⟩ => show win0_6.index t (1 : Fin 2) * 1 + 1 * 0 = 0; omega

/-! ## The six input blocks of a point are rows of the staged arrays -/

theorem blocks_at (t : Fin cfg0.N) (I : Fin 8) (J : Fin 16) (hI : I.val = t.val / 16) (hJ : J.val = t.val % 16) :
    Blocks (A0 m c) (A1 m c) (A2 m c) I J (iblk m c 0 t) (iblk m c 1 t) (iblk m c 2 t) (iblk m c 3 t) (iblk m c 4 t)
      (iblk m c 5 t) where
  h0 := fun ρ k => by
    show (V m c main_v34 : S8192x512.Idx → EReal) (((cfg0.win 0).blk t).view.emb (ix2 ρ k)) = _
    rw [emb0 t I hI ρ k, opnd0 m c]
  h1 := fun κ k => by
    show (V m c main_v35 : S8192x512.Idx → EReal) (((cfg0.win 1).blk t).view.emb (ix2 κ k)) = _
    rw [emb1 t J hJ κ k, opnd1 m c]
  h2 := fun ρ => by
    show (V m c main_v23 : S8192x1.Idx → EReal) (((cfg0.win 2).blk t).view.emb (ix2 ρ (0 : Fin 1))) = _
    rw [emb2 t I hI ρ]; exact opnd2 m c (grow I ρ)
  h3 := fun κ => by
    show (V m c main_v33 : S1x8192.Idx → EReal) (((cfg0.win 3).blk t).view.emb (ix2 (0 : Fin 1) κ)) = _
    rw [emb3 t J hJ κ]; exact opnd3 m c (gcol J κ)
  h4 := fun ρ => by
    show (V m c main_v6 : S8192x1.Idx → EReal) (((cfg0.win 4).blk t).view.emb (ix2 ρ (0 : Fin 1))) = _
    rw [emb4 t I hI ρ]; exact opnd4 m c (grow I ρ)
  h5 := fun ρ => by
    show (V m c main_v13 : S8192x1.Idx → EReal) (((cfg0.win 5).blk t).view.emb (ix2 ρ (0 : Fin 1))) = _
    rw [emb5 t I hI ρ]; exact opnd5 m c (grow I ρ)

/-! ## The running row sums, point by point -/

/-- The 512 losses of the global row 1024·I + ρ in column tile j (zero past the last tile). -/
def colSum (A P N : Arr) (I : Fin 8) (ρ : Fin 1024) (j : ℕ) : EReal :=
  if h : j < 16 then ∑ κ : Fin 512, lossK A P N (grow I ρ) (gcol ⟨j, h⟩ κ) else 0

theorem pay2_zero (ρ : Fin 1024) : k0_pay2 (F := Ideal) (ix2 ρ (0 : Fin 1)) = 0 := Ideal.ofBits_zero_f32

theorem stepAt_apply (t : Fin cfg0.N) (I : Fin 8) (J : Fin 16) (hI : I.val = t.val / 16) (hJ : J.val = t.val % 16)
    (acc : Vec Ideal S1024x1 .f32) (ρ : Fin 1024) :
    stepAt m c t acc (ix2 ρ (0 : Fin 1)) = acc (ix2 ρ (0 : Fin 1)) + colSum (A0 m c) (A1 m c) (A2 m c) I ρ J.val := by
  unfold stepAt
  refine (step_apply (A0 m c) (A1 m c) (A2 m c) t I J hI hJ (iblk m c 0 t) (iblk m c 1 t) (iblk m c 2 t) (iblk m c 3 t)
    (iblk m c 4 t) (iblk m c 5 t) acc (blocks_at m c t I J hI hJ) ρ).trans ?_
  unfold colSum
  rw [dif_pos J.isLt]

theorem outsAt_apply : ∀ (n : ℕ) (hn : n < cfg0.N) (I : Fin 8) (J : Fin 16), I.val = n / 16 → J.val = n % 16 →
    ∀ ρ : Fin 1024, outsAt m c n hn (ix2 ρ (0 : Fin 1))
      = ∑ j ∈ Finset.range (J.val + 1), colSum (A0 m c) (A1 m c) (A2 m c) I ρ j
  | 0, hn, I, J, hI, hJ, ρ => by
    rw [outsAt_zero, stepAt_apply m c ⟨0, hn⟩ I J hI hJ, pay2_zero, zero_add]
    have hJ0 : J.val = 0 := hJ
    rw [hJ0, Finset.sum_range_one]
  | n + 1, hn, I, J, hI, hJ, ρ => by
    rw [outsAt_succ, stepAt_apply m c ⟨n + 1, hn⟩ I J hI hJ]
    by_cases h0 : (n + 1) % 16 = 0
    · rw [if_pos h0, pay2_zero, zero_add]
      have hJ0 : J.val = 0 := hJ.trans h0
      rw [hJ0, Finset.sum_range_one]
    · rw [if_neg h0]
      have hJ1 : 1 ≤ J.val := by omega
      have hJlt := J.isLt
      have IH := outsAt_apply n (Nat.lt_of_succ_lt hn) I ⟨J.val - 1, by omega⟩ (by omega) (by show J.val - 1 = n % 16; omega) ρ
      rw [IH]
      show (∑ j ∈ Finset.range (J.val - 1 + 1), _) + _ = _
      rw [show J.val - 1 + 1 = J.val from by omega, ← Finset.sum_range_succ]

/-- All sixteen column tiles together are the row's 8192 columns. -/
theorem rowTotal (A P N : Arr) (I : Fin 8) (ρ : Fin 1024) :
    ∑ j ∈ Finset.range 16, colSum A P N I ρ j = ∑ q : Fin 8192, lossK A P N (grow I ρ) q := by
  rw [Finset.sum_range, ← ChunkSum.sum_chunks (n := 16) (m := 512) (N := 8192) rfl (fun q => lossK A P N (grow I ρ) q)]
  refine Finset.sum_congr rfl fun j _ => ?_
  unfold colSum
  rw [dif_pos j.isLt]

/-! ## The array after the run -/

/-- The sum of a row's 8192 losses. -/
def rowLoss (A P N : Arr) (r : Fin 8192) : EReal := ∑ q : Fin 8192, lossK A P N r q

/-- The [8192, 1] array of row sums. -/
def G6 (A P N : Arr) : S8192x1.Idx → EReal := fun i => rowLoss A P N (i 0 : Fin 8192)

/-- What a flushing point (the last of a row tile) writes back is its block of the row sums. -/
theorem flushed_eq (t : Fin cfg0.N) (hf : (cfg0.win 6).flush t = true) :
    (Acc.dats m 0 c).flushed 6 t = ((cfg0.win 6).blk t).view.read (Elt Ideal) (G6 (A0 m c) (A1 m c) (A2 m c)) := by
  show (cfg0.win 6).cut (grid0.coords t) ((Acc.dats m 0 c).after 6 t) = _
  rw [after0_6]
  have h15 : t.val % 16 = 15 := (flush0_6 t).mp hf
  have hN : t.val < 128 := lt_of_lt_of_eq t.isLt (show cfg0.N = 128 from N_0)
  funext y
  obtain ⟨ρ, u, rfl⟩ : ∃ (ρ : Fin 1024) (u : Fin 1), y = ix2 ρ u := ⟨y 0, y 1, eq_ix2 y⟩
  obtain rfl : u = 0 := Subsingleton.elim _ _
  show outsAt m c t.val t.isLt (ix2 ρ (0 : Fin 1)) = G6 (A0 m c) (A1 m c) (A2 m c) (((cfg0.win 6).blk t).view.emb (ix2 ρ (0 : Fin 1)))
  rw [emb6 t ⟨t.val / 16, by omega⟩ rfl ρ,
    outsAt_apply m c t.val t.isLt ⟨t.val / 16, by omega⟩ ⟨15, by omega⟩ rfl h15.symm ρ, rowTotal]
  rfl

theorem mem_blk6 (t : Fin cfg0.N) (i : S8192x1.Idx) :
    i ∈ ((cfg0.win 6).blk t).view.set ↔ ∀ a : Fin 2, win0_6.index t a * S1024x1.size a ≤ (i a).val
      ∧ (i a).val < win0_6.index t a * S1024x1.size a + S1024x1.size a := by
  show i ∈ ((View.whole main_v36).slice (win0_6.rect t)).set ↔ _
  rw [View.set_slice_whole, Rect.mem_set_unit]
  exact Iff.rfl

/-- Every row of the array is in the block some row tile's last point writes back. -/
theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : cfg0.N = 128 := N_0
  refine ⟨⟨16 * ((i 0).val / 1024) + 15, by rw [hN]; omega⟩, (flush0_6 _).mpr (by show (16 * ((i 0).val / 1024) + 15) % 16 = 15; omega), ?_⟩
  rw [mem_blk6]
  obtain ⟨-, -, -, -, -, -, -, -, -, -, -, -, e0, e1⟩ := idx_facts ⟨16 * ((i 0).val / 1024) + 15, by rw [hN]; omega⟩
  intro a
  match a with
  | ⟨0, _⟩ =>
    show win0_6.index _ (0 : Fin 2) * 1024 ≤ (i 0).val ∧ (i 0).val < win0_6.index _ (0 : Fin 2) * 1024 + 1024
    rw [e0]; show (16 * ((i 0).val / 1024) + 15) / 16 * 1024 ≤ _ ∧ _ < (16 * ((i 0).val / 1024) + 15) / 16 * 1024 + 1024
    omega
  | ⟨1, _⟩ =>
    show win0_6.index _ (1 : Fin 2) * 1 ≤ (i 1).val ∧ (i 1).val < win0_6.index _ (1 : Fin 2) * 1 + 1
    rw [e1]; omega

/-- The array the pallas_call leaves: the row sums. -/
theorem final6 : (Acc.dats m 0 c).arrAt 6 cfg0.N = G6 (A0 m c) (A1 m c) (A2 m c) :=
  (Acc.dats m 0 c).arrAt_eq_of_cover 6 (G6 (A0 m c) (A1 m c) (A2 m c)) (fun t hf => flushed_eq m c t hf) (cover6)

end Cert.KernelIdeal.RowSums

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.KernelResult.lean ====
/-
  The kernel's result from the array of row sums, and the precondition read as "every entry is a real number".

  After the pallas_call the host adds the 8192 entries of the [8192, 1] array of row sums (a sum over every index of
  the array, from the zero word) and divides by the word of 8192²: that is `Spec.totalK`.  The precondition says, of
  each argument array, that every |entry| is below +inf; on the extended reals that is "every entry is a real number".
-/
import proofs.«151191_j39779987096333_2_alg».proof.Defs
import proofs.«151191_j39779987096333_2_alg».proof.Proof.Gen.Pre_finite_inputs
import proofs.«151191_j39779987096333_2_alg».proof.Proof.KernelArray
import proofs.«151191_j39779987096333_2_alg».proof.Proof.LibRealValued
import Idealize.ShloMosaic.Lib.ReduceAll
import Idealize.ShloMosaic.Lib.Affine

set_option maxRecDepth 16384

noncomputable section

namespace Cert.KernelIdeal.Result

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen Cert.KernelIdeal.Acc Cert.KernelIdeal.Entry Cert.KernelIdeal.Operands
open Cert.KernelIdeal.RowSums Cert.Spec Cert.RealValued

variable (m : (ℓ : Loc nD τ sig) → Buf (Elt Ideal) ℓ) (c : Dev nD)

/-- The host's sum of an [8192, 1] array over both axes, from the zero word: the sum of its 8192 entries. -/
theorem sumAll (y : S8192x1.Idx → EReal) (i : S_.Idx) :
    Host.reduceAdd (F := Ideal) (φ := .f32) y (constant (F := Ideal) S_ .f32 0x00000000#32) reducesTo_S8192x1_S_d0_1 h_S_ i
      = ∑ r : Fin 8192, y (ix2 r (0 : Fin 1)) := by
  simp only [Host.reduceAdd, Ideal.hostReduceAdd_def]
  rw [Ideal.hostReduceAdd_total reducesTo_S8192x1_S_d0_1 (fun b => b.elim0) y _ i]
  rw [constant_apply, Ideal.ofBits_zero_f32, zero_add, sum_idx2]
  exact Finset.sum_congr rfl fun r _ => Fin.sum_univ_one _

/-- The result buffer after the host operations that follow the pallas_call. -/
theorem tail_eq : Pipeline.afterTail₀ cfgs (Acc.dats m) 0 (V0 m) [hostOps1] c main_v38
    = fun _ => totalK (A0 m c) (A1 m c) (A2 m c) := by
  unfold Pipeline.afterTail₀
  show StableHlo.after hostOps1 _ (Proc.devRef .tc main_v38) = _
  after_results
  have hW : Pipeline.withArrays (cfgs 0).spec c (V0 m c) (fun w => (Acc.dats m 0 c).arrAt w (cfgs 0).N)
      (Proc.devRef .tc main_v36) = G6 (A0 m c) (A1 m c) (A2 m c) :=
    (Pipeline.withArrays_arr spec0 launch0.win.arr_inj c _ _ 6).trans (final6 m c)
  rw [hW]
  funext i
  show Ideal.div (Host.reduceAdd (F := Ideal) (φ := .f32) (G6 (A0 m c) (A1 m c) (A2 m c))
      (constant (F := Ideal) S_ .f32 0x00000000#32) reducesTo_S8192x1_S_d0_1 h_S_ i) (Ideal.ofBits .f32 0x4C800000#32) = _
  rw [sumAll]
  rfl

end Cert.KernelIdeal.Result

namespace Cert.Finite

open Idealize.ShloMosaic Idealize.ShloMosaic.ValueIdx Cert.RealValued

/-- The precondition, all ones: every entry of each of the three arrays is a real number. -/
theorem real_of_pre (a0 a1 a2 : FVec Ideal Cert.Pre_finite_inputs.S8192x512 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ix0
  dsimp only [Cert.Pre_finite_inputs.fn] at h0
  change IntOp.andi (IntOp.andi _ _) _ = 1#1 at h0
  obtain ⟨h01, h2⟩ := IntOp.andi_eq_one.mp h0
  obtain ⟨h0', h1⟩ := IntOp.andi_eq_one.mp h01
  exact ⟨all_isReal a0 _ _ _ _ h0', all_isReal a1 _ _ _ _ h1, all_isReal a2 _ _ _ _ h2⟩

end Cert.Finite

end
-- ==== Proof.RefValue.lean ====
/-
  The reference's result is `Spec.totalR` of the three argument arrays.

  Read one operation at a time: the four row sums (|A_r|², |P_q|², ΣA_r, ΣP_q), the two shifted distances, the
  expanded squared distance of the pair (r, q) with its terms in the reference's order, the diagonal mask (row index
  equals column index, as 32-bit words of numbers below 8192), the loss of the pair, and the sum over all pairs
  regrouped as a sum over rows of sums over columns.
-/
import proofs.«151191_j39779987096333_2_alg».proof.Defs
import proofs.«151191_j39779987096333_2_alg».proof.Proof.Gen.ReferenceIdeal.Read
import proofs.«151191_j39779987096333_2_alg».proof.Proof.Spec
import Idealize.ShloMosaic.Lib.Affine

noncomputable section

namespace Cert.ReferenceIdeal.RefValue

open Cert.ReferenceIdeal Cert.ReferenceIdeal.Gen Cert.ReferenceIdeal.Read
open Idealize.ShloMosaic Idealize.ShloMosaic.ValueIdx Cert.Spec

variable (A P N : (⟨S8192x512, .f32⟩ : BufTy).Contents (Elt Ideal))

/-- Two index functions into a rank-2 shape with the same coordinates are equal. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## The index maps of the layout operations, at coordinates -/

theorem i4 (r : Fin 8192) (k : Fin 512) : idx_main_v4 (ix1 r) k = ix2 r k := by idx2
theorem i10 (r : Fin 8192) (k : Fin 512) : idx_main_v10 (ix1 r) k = ix2 r k := by idx2
theorem i13 (r : Fin 8192) (k : Fin 512) : idx_main_v13 (ix1 r) k = ix2 r k := by idx2
theorem i15 (r : Fin 8192) (k : Fin 512) : idx_main_v15 (ix1 r) k = ix2 r k := by idx2
theorem i16 (r : Fin 8192) (k : Fin 512) : idx_main_v16 (ix1 r) k = ix2 r k := by idx2
theorem i17 (r : Fin 8192) (k : Fin 512) : idx_main_v17 (ix1 r) k = ix2 r k := by idx2
theorem i18 (r : Fin 8192) : idx_main_v18 (ix2 r (0 : Fin 1)) = ix1 r := by idx1
theorem i27 (r : Fin 8192) : idx_main_v27 (ix2 r (0 : Fin 1)) = ix1 r := by idx1
theorem i45 (r : Fin 8192) : idx_main_v45 (ix2 r (0 : Fin 1)) = ix1 r := by idx1
theorem i47 (r : Fin 8192) : idx_main_v47 (ix2 r (0 : Fin 1)) = ix1 r := by idx1
theorem i19 (q : Fin 8192) : idx_main_v19 (ix2 (0 : Fin 1) q) = ix1 q := by idx1
theorem i28 (q : Fin 8192) : idx_main_v28 (ix2 (0 : Fin 1) q) = ix1 q := by idx1
theorem i20 (r q : Fin 8192) : idx_main_v20 (ix2 r q) = ix2 r (0 : Fin 1) := by idx2
theorem i29 (r q : Fin 8192) : idx_main_v29 (ix2 r q) = ix2 r (0 : Fin 1) := by idx2
theorem i48 (r q : Fin 8192) : idx_main_v48 (ix2 r q) = ix2 r (0 : Fin 1) := by idx2
theorem ic0 (r q : Fin 8192) : idx_main_call0_v0 (ix2 r q) = ix2 r (0 : Fin 1) := by idx2
theorem i21 (r q : Fin 8192) : idx_main_v21 (ix2 r q) = ix2 (0 : Fin 1) q := by idx2
theorem i30 (r q : Fin 8192) : idx_main_v30 (ix2 r q) = ix2 (0 : Fin 1) q := by idx2
theorem dotL (r q : Fin 8192) (k : Fin 512) : lidx_main_v23 (ix2 r q) k = ix2 r k := by idx2
theorem dotR (r q : Fin 8192) (k : Fin 512) : ridx_main_v23 (ix2 r q) k = ix2 q k := by idx2

/-! ## The row sums and the two shifted distances -/

theorem ref_sumSqA (r : Fin 8192) : val_main_v13 (F := Ideal) A (ix1 r) = sumSq A r := by
  rw [val_main_v13_apply]
  simp only [val_main_cst_3_apply, val_main_v12_apply, Ideal.ofBits_def, Ideal.ofBits_zero_f32, zero_add,
    Ideal.mulf_def, i13]
  rfl

theorem ref_sumSqP (q : Fin 8192) : val_main_v15 (F := Ideal) P (ix1 q) = sumSq P q := by
  rw [val_main_v15_apply]
  simp only [val_main_cst_4_apply, val_main_v14_apply, Ideal.ofBits_def, Ideal.ofBits_zero_f32, zero_add,
    Ideal.mulf_def, i15]
  rfl

theorem ref_sumRowA (r : Fin 8192) : val_main_v16 (F := Ideal) A (ix1 r) = sumRow A r := by
  rw [val_main_v16_apply]
  simp only [val_main_cst_5_apply, Ideal.ofBits_def, Ideal.ofBits_zero_f32, zero_add, i16]
  rfl

theorem ref_sumRowP (q : Fin 8192) : val_main_v17 (F := Ideal) P (ix1 q) = sumRow P q := by
  rw [val_main_v17_apply]
  simp only [val_main_cst_6_apply, Ideal.ofBits_def, Ideal.ofBits_zero_f32, zero_add, i17]
  rfl

theorem ref_dpos (r : Fin 8192) : val_main_v5 (F := Ideal) A P (ix1 r) = dshift A P r := by
  rw [val_main_v5_apply, val_main_v4_apply]
  simp only [val_main_cst_0_apply, val_main_v3_apply, val_main_v2_apply, val_main_v0_apply, val_main_v1_apply,
    val_main_cst_apply, Ideal.ofBits_def, Ideal.ofBits_zero_f32, zero_add, Ideal.mulf_def, Ideal.addf_def,
    Ideal.subf_def, Ideal.hostUnary_sqrt_def, i4]
  rfl

theorem ref_dneg (r : Fin 8192) : val_main_v11 (F := Ideal) A N (ix1 r) = dshift A N r := by
  rw [val_main_v11_apply, val_main_v10_apply]
  simp only [val_main_cst_2_apply, val_main_v9_apply, val_main_v8_apply, val_main_v6_apply, val_main_v7_apply,
    val_main_cst_1_apply, Ideal.ofBits_def, Ideal.ofBits_zero_f32, zero_add, Ideal.mulf_def, Ideal.addf_def,
    Ideal.subf_def, Ideal.hostUnary_sqrt_def, i10]
  rfl

/-! ## The expanded squared distance of a pair -/

theorem ref_sq (r q : Fin 8192) : val_main_v36 (F := Ideal) A P (ix2 r q) = sqR A P r q := by
  rw [val_main_v36_apply, val_main_v34_apply, val_main_v26_apply, val_main_v22_apply, val_main_v25_apply,
    val_main_v33_apply, val_main_v31_apply, val_main_v23_apply]
  rw [val_main_v20_apply, val_main_v21_apply, val_main_v29_apply, val_main_v30_apply, val_main_v24_apply,
    val_main_v32_apply, val_main_v35_apply, i20, i21, i29, i30]
  rw [val_main_v18_apply, val_main_v19_apply, val_main_v27_apply, val_main_v28_apply, i18, i19, i27, i28,
    ref_sumSqA, ref_sumSqP, ref_sumRowA, ref_sumRowP]
  simp only [val_main_cst_7_apply, val_main_cst_8_apply, val_main_cst_9_apply, Ideal.ofBits_def, Ideal.mulf_def,
    Ideal.addf_def, Ideal.subf_def, dotL, dotR]
  rfl

/-! ## The diagonal mask -/

/-- Row number equals column number, compared as 32-bit words: the numbers are below 8192, so the words are equal
    exactly when the numbers are. -/
theorem select_mask {α : Type} (r q : Fin 8192) (a b : α) :
    Scalar.select (IntOp.cmpi .eq (IntOp.addi (BitVec.ofNat 32 r.val) 0#32) (BitVec.ofNat 32 q.val)) a b
      = if r = q then a else b := by
  have h : (IntOp.cmpi .eq (IntOp.addi (BitVec.ofNat 32 r.val) 0#32) (BitVec.ofNat 32 q.val) = 1#1) ↔ r = q := by
    rw [IntOp.cmpi_eq]; unfold IntOp.addi; rw [BitVec.add_zero]
    constructor
    · intro h
      have h2 := congrArg BitVec.toNat h
      simp only [BitVec.toNat_ofNat] at h2
      have h3 := r.isLt; have h4 := q.isLt
      exact Fin.ext (by omega)
    · rintro rfl; rfl
  have hc : ∀ c : BitVec 1, (c = 1#1 ↔ r = q) → Scalar.select c a b = if r = q then a else b := by
    intro c hc
    unfold Scalar.select
    by_cases hrq : r = q
    · rw [if_pos hrq]; exact if_pos (hc.mpr hrq)
    · rw [if_neg hrq]; exact if_neg (fun hh => hrq (hc.mp hh))
  exact hc _ h

/-! ## The loss of a pair, and the total -/

theorem ref_loss (r q : Fin 8192) : val_main_v51 (F := Ideal) A P N (ix2 r q) = lossR A P N r q := by
  rw [val_main_v51_apply, val_main_v50_apply, val_main_v49_apply, val_main_v48_apply, val_main_v46_apply,
    val_main_v47_apply, val_main_call0_v0_apply, val_main_v45_apply, val_main_v39_apply, val_main_v38_apply,
    val_main_v37_apply, val_main_v44_apply, val_main_v43_apply, val_main_v42_apply, i48, i47, ic0, i45,
    ref_dpos, ref_dneg, ref_sq]
  simp only [val_main_v40_apply, val_main_v41_apply, val_main_c_apply, val_main_cst_10_apply, Ideal.ofBits_def,
    Ideal.subf_def, Ideal.maximumf_def, Ideal.hostUnary_sqrt_def, Ideal.hostUnary_exp_def,
    Ideal.hostUnary_log1p_def]
  unfold lossR distR
  exact congrArg (fun z => Ideal.log1p (Ideal.exp (dshift A P r - z))) (select_mask r q _ _)

theorem ref_total : val_main_v53 (F := Ideal) A P N = fun _ => totalR A P N := by
  funext i
  rw [val_main_v53_apply, val_main_v52_apply]
  simp only [val_main_cst_11_apply, val_main_cst_12_apply, Ideal.ofBits_def, Ideal.ofBits_zero_f32, zero_add,
    Ideal.hostDivf_def]
  unfold totalR
  rw [sum_idx2]
  simp only [ref_loss]

end Cert.ReferenceIdeal.RefValue

end
-- ==== Proof.LibLossLaws.lean ====
/-
  The laws on the extended reals that join a numerically stable loss to its textbook form.

  Every float of an idealized program is an extended real, and the usual algebra (cancelling, regrouping a sum of
  products, log (a · b) = log a + log b) holds for real numbers and can fail at an infinity. The programs compared here
  work on finite inputs, so every entry they meet is a real number; this file has the laws that are then needed:

    * the stable softplus: max (x, 0) + log1p (exp (0 − |x|)) = log1p (exp x) for a real x, where |x| is spelled
      max (x, −x); and its value, the real number log (1 + exp x);
    * the square root of a nonnegative real number is the real square root; of max (a, ε) with ε ≥ 0 in particular;
    * the maximum of two real numbers, inside the extended reals, is the real maximum;
    * each float literal of the two programs denotes a real number, the small ones nonnegative, and 2.0 and 2^26 exactly;
    * real numbers are closed under −, max, negation, the square root of a nonnegative one and the softplus terms (sums,
      products and finite sums are in the imported library), and a regrouping of a sum of products of real numbers is
      proved by moving the coercions outward and appealing to the ring laws of the real numbers.

  Nothing here depends on a particular program.
-/
import Idealize.ShloMosaic.PureOps.Ideal
import Idealize.ShloMosaic.PureOps.Ideal.Laws
import Mathlib.Analysis.SpecialFunctions.Log.Basic
import Mathlib.Tactic
import proofs.«151191_j39779987096333_2_alg».proof.Proof.LibRealValued

noncomputable section

namespace Cert.LossLaws

open Idealize.ShloMosaic
open Cert.RealValued (IsReal isReal_zero isReal_sum ieee_isReal)

/-! ### Maximum, softplus and square root of real numbers -/

/-- The coercion of the real numbers into the extended reals is monotone, so it commutes with the maximum. -/
theorem max_real (a b : ℝ) : max (a : EReal) (b : EReal) = ((max a b : ℝ) : EReal) :=
  (EReal.coe_strictMono.monotone.map_max).symm

/-- log1p (exp x) of a real x is the real number log (1 + exp x): 1 + exp x is positive, so the logarithm is at no
    corner. -/
theorem log1p_exp_real (x : ℝ) :
    Ideal.log1p (Ideal.exp (x : EReal)) = ((Real.log (1 + Real.exp x) : ℝ) : EReal) := by
  have hpos : ¬ (1 + Real.exp x ≤ 0) := not_le.mpr (by positivity)
  rw [Ideal.log1p, Ideal.exp_coe, ← EReal.coe_one, ← EReal.coe_add, Ideal.log_coe, if_neg hpos]

/-- The stable softplus over the real numbers. For x ≥ 0: x + log (1 + exp (−x)) = log (exp x · (1 + exp (−x)))
    = log (exp x + 1). For x ≤ 0: |x| = −x and the left side is 0 + log (1 + exp x). -/
theorem softplus_real (x : ℝ) :
    max x 0 + Real.log (1 + Real.exp (0 - max x (-x))) = Real.log (1 + Real.exp x) := by
  rcases le_total 0 x with h | h
  · have h1 : max x 0 = x := max_eq_left h
    have h2 : max x (-x) = x := max_eq_left (by linarith)
    have hpos : (0 : ℝ) < 1 + Real.exp (-x) := by positivity
    rw [h1, h2, zero_sub]
    calc x + Real.log (1 + Real.exp (-x))
        = Real.log (Real.exp x) + Real.log (1 + Real.exp (-x)) := by rw [Real.log_exp]
      _ = Real.log (Real.exp x * (1 + Real.exp (-x))) :=
          (Real.log_mul (Real.exp_pos x).ne' hpos.ne').symm
      _ = Real.log (1 + Real.exp x) := by
          congr 1
          rw [mul_add, mul_one, ← Real.exp_add, add_neg_cancel, Real.exp_zero, add_comm]
  · have h1 : max x 0 = 0 := max_eq_right h
    have h2 : max x (-x) = -x := max_eq_right (by linarith)
    rw [h1, h2, zero_add, zero_sub, neg_neg]

/-- The stable form's inner argument 0 − |x| of a real x is the real number 0 − max (x, −x). -/
theorem neg_abs_real (x : ℝ) :
    (0 : EReal) - max (x : EReal) (-(x : EReal)) = ((0 - max x (-x) : ℝ) : EReal) := by
  rw [← EReal.coe_neg, max_real, ← EReal.coe_zero, ← EReal.coe_sub]

/-- max (x, 0) of a real x is the real maximum. -/
theorem max_zero_real (x : ℝ) : max (x : EReal) 0 = ((max x 0 : ℝ) : EReal) := by
  rw [← EReal.coe_zero, max_real]

/-- The stable softplus on the extended reals, at a real x: both sides are real numbers and the real law applies. -/
theorem softplus_stable (x : ℝ) :
    max (x : EReal) 0 + Ideal.log1p (Ideal.exp (0 - max (x : EReal) (-(x : EReal))))
      = Ideal.log1p (Ideal.exp (x : EReal)) := by
  rw [max_zero_real, neg_abs_real, log1p_exp_real, log1p_exp_real, ← EReal.coe_add, softplus_real]

/-- The stable softplus of a real x is the real number log (1 + exp x). -/
theorem softplus_stable_value (x : ℝ) :
    max (x : EReal) 0 + Ideal.log1p (Ideal.exp (0 - max (x : EReal) (-(x : EReal))))
      = ((Real.log (1 + Real.exp x) : ℝ) : EReal) := by
  rw [softplus_stable, log1p_exp_real]

/-- The square root of a nonnegative real number is the real square root. -/
theorem sqrt_real {r : ℝ} (h : 0 ≤ r) : Ideal.sqrt (r : EReal) = ((Real.sqrt r : ℝ) : EReal) := by
  rw [Ideal.sqrt_coe, if_neg (not_lt.mpr h)]

/-- The square root of max (a, ε), for real a and a real ε ≥ 0, is the real square root of the real maximum. -/
theorem sqrt_max_real (a : ℝ) {e : ℝ} (he : 0 ≤ e) :
    Ideal.sqrt (max (a : EReal) (e : EReal)) = ((Real.sqrt (max a e) : ℝ) : EReal) := by
  rw [max_real, sqrt_real (le_trans he (le_max_right a e))]

/-! ### Real numbers inside the extended reals: closure -/

/-- A coerced real number is a real number. -/
theorem isReal_coe (r : ℝ) : IsReal (r : EReal) := ⟨r, rfl⟩

/-- One is a real number. -/
theorem isReal_one : IsReal 1 := ⟨1, EReal.coe_one.symm⟩

/-- The negation of a real number is a real number. -/
theorem _root_.Cert.RealValued.IsReal.neg {a : EReal} (ha : IsReal a) : IsReal (-a) := by
  obtain ⟨r, rfl⟩ := ha
  exact ⟨-r, (EReal.coe_neg r).symm⟩

/-- The difference of two real numbers is a real number. -/
theorem _root_.Cert.RealValued.IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two real numbers is a real number. -/
theorem _root_.Cert.RealValued.IsReal.max {a b : EReal} (ha : IsReal a) (hb : IsReal b) : IsReal (Max.max a b) := by
  obtain ⟨r, rfl⟩ := ha
  obtain ⟨s, rfl⟩ := hb
  exact ⟨Max.max r s, max_real r s⟩

/-- A sum of real numbers over a whole finite index type is a real number. -/
theorem _root_.Cert.RealValued.IsReal.sum {ι : Type} [Fintype ι] {f : ι → EReal} (h : ∀ i, IsReal (f i)) : IsReal (∑ i, f i) :=
  isReal_sum Finset.univ f fun i _ => h i

/-- The coercion of a finite sum of real numbers is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The square root of a nonnegative real number is a real number. -/
theorem _root_.Cert.RealValued.IsReal.sqrt {a : EReal} (ha : IsReal a) (h0 : 0 ≤ a) : IsReal (Ideal.sqrt a) := by
  obtain ⟨r, rfl⟩ := ha
  have hr : 0 ≤ r := by rwa [← EReal.coe_zero, EReal.coe_le_coe_iff] at h0
  exact ⟨Real.sqrt r, sqrt_real hr⟩

/-- The square root of max (a, ε), for real a and a real ε ≥ 0, is a real number. -/
theorem _root_.Cert.RealValued.IsReal.sqrt_max {a e : EReal} (ha : IsReal a) (he : IsReal e) (h0 : 0 ≤ e) :
    IsReal (Ideal.sqrt (Max.max a e)) :=
  (ha.max he).sqrt (le_trans h0 (le_max_right a e))

/-- log1p (exp a) of a real number a is a real number. -/
theorem _root_.Cert.RealValued.IsReal.log1p_exp {a : EReal} (ha : IsReal a) : IsReal (Ideal.log1p (Ideal.exp a)) := by
  obtain ⟨r, rfl⟩ := ha
  exact ⟨_, log1p_exp_real r⟩

/-- The stable softplus at a real number, stated on an extended real known to be one. -/
theorem softplus_stable_of_isReal {a : EReal} (ha : IsReal a) :
    max a 0 + Ideal.log1p (Ideal.exp (0 - max a (-a))) = Ideal.log1p (Ideal.exp a) := by
  obtain ⟨r, rfl⟩ := ha
  exact softplus_stable r

/-- The stable softplus term of a real number is a real number. -/
theorem _root_.Cert.RealValued.IsReal.softplus {a : EReal} (ha : IsReal a) :
    IsReal (Max.max a 0 + Ideal.log1p (Ideal.exp (0 - Max.max a (-a)))) := by
  rw [softplus_stable_of_isReal ha]
  exact ha.log1p_exp

/-! ### The same laws in the operations of an idealized program

An idealized program spells these terms in the float operations at the extended reals — sum, difference, maximum,
absolute value max (a, −a), exp, log1p, sqrt — and its zero as the all-zero f32 word. Each operation is by definition
the extended-real one, so the laws above apply as they stand. -/

/-- The stable softplus in a program's operations, its zero the all-zero f32 word. -/
theorem softplus_stable_ops (a : Ideal .f32) (ha : IsReal a) :
    FloatOps.addf (FloatOps.maximumf a (Ideal.ofBits .f32 0x00000000#32))
        (FloatOps.log1p (FloatOps.exp (FloatOps.subf (Ideal.ofBits .f32 0x00000000#32) (FloatOps.absf a))))
      = FloatOps.log1p (FloatOps.exp a) := by
  show max a (Ideal.ofBits .f32 0x00000000#32)
      + Ideal.log1p (Ideal.exp (Ideal.ofBits .f32 0x00000000#32 - max a (-a))) = Ideal.log1p (Ideal.exp a)
  rw [Ideal.ofBits_zero_f32]
  exact softplus_stable_of_isReal ha

/-- A program's square root of a maximum with a nonnegative real ε, at a real number: a real number. -/
theorem isReal_sqrt_max_ops {a e : Ideal .f32} (ha : IsReal a) (he : IsReal e) (h0 : (0 : EReal) ≤ e) :
    IsReal (FloatOps.sqrt (FloatOps.maximumf a e) : Ideal .f32) :=
  IsReal.sqrt_max ha he h0

/-! ### The float literals of the two programs -/

/-- An f32 word whose exponent field is not all ones denotes a real number. -/
theorem f32_isReal (w : BitVec 32) (h : (w.extractLsb' 23 8).toNat ≠ 2 ^ 8 - 1) :
    IsReal (Ideal.ofBits .f32 w) :=
  ieee_isReal 8 23 w h

/-- A float word with a clear sign bit and an exponent field that is not all ones denotes a nonnegative real number:
    its value is a natural number times a power of two. -/
theorem ieee_nonneg (e m : Nat) {w : Nat} (b : BitVec w) (h : (b.extractLsb' m e).toNat ≠ 2 ^ e - 1)
    (hs : (b.extractLsb' (e + m) 1 == 1#1) = false) : ∃ r : ℝ, 0 ≤ r ∧ Ideal.ieee e m b = (r : EReal) := by
  unfold Ideal.ieee
  dsimp only
  rw [if_neg h, hs]
  simp only [Bool.false_eq_true, if_false]
  split
  · exact ⟨_, by positivity, rfl⟩
  · exact ⟨_, by positivity, rfl⟩

/-- The same for an f32 word. -/
theorem f32_nonneg (w : BitVec 32) (h : (w.extractLsb' 23 8).toNat ≠ 2 ^ 8 - 1)
    (hs : (w.extractLsb' 31 1 == 1#1) = false) : ∃ r : ℝ, 0 ≤ r ∧ Ideal.ofBits .f32 w = (r : EReal) :=
  ieee_nonneg 8 23 w h hs

/-- 0.0 -/
theorem lit_zero : Ideal.ofBits .f32 0x00000000#32 = ((0 : ℝ) : EReal) := by
  rw [Ideal.ofBits_zero_f32, EReal.coe_zero]

/-- 1e-12 as an f32: a nonnegative real number. -/
theorem lit_eps12 : ∃ r : ℝ, 0 ≤ r ∧ Ideal.ofBits .f32 0x2B8CBCCC#32 = (r : EReal) :=
  f32_nonneg _ (by decide) (by decide)

/-- 1e-6 as an f32: a nonnegative real number. -/
theorem lit_eps6 : ∃ r : ℝ, 0 ≤ r ∧ Ideal.ofBits .f32 0x358637BD#32 = (r : EReal) :=
  f32_nonneg _ (by decide) (by decide)

/-- 2e-6 as an f32: a nonnegative real number. -/
theorem lit_2eps6 : ∃ r : ℝ, 0 ≤ r ∧ Ideal.ofBits .f32 0x360637BD#32 = (r : EReal) :=
  f32_nonneg _ (by decide) (by decide)

/-- 5.12e-10 as an f32: a nonnegative real number. -/
theorem lit_512eps12 : ∃ r : ℝ, 0 ≤ r ∧ Ideal.ofBits .f32 0x300CBCCC#32 = (r : EReal) :=
  f32_nonneg _ (by decide) (by decide)

/-- 2.0: sign 0, exponent field 128, fraction 0, that is 2^23 · 2^(128 − 127 − 23) = 2. -/
theorem lit_two : Ideal.ofBits .f32 0x40000000#32 = ((2 : ℝ) : EReal) := by
  simp [Ideal.ofBits, Ideal.ieee, -EReal.coe_mul]; norm_num

/-- 2^26: sign 0, exponent field 153, fraction 0, that is 2^23 · 2^(153 − 127 − 23) = 2^26 = 67108864. -/
theorem lit_two_pow_26 : Ideal.ofBits .f32 0x4C800000#32 = ((67108864 : ℝ) : EReal) := by
  simp [Ideal.ofBits, Ideal.ieee, -EReal.coe_mul]; norm_num

/-- Every float literal of the two programs is a real number. -/
theorem lit_isReal :
    IsReal (Ideal.ofBits .f32 0x00000000#32) ∧ IsReal (Ideal.ofBits .f32 0x2B8CBCCC#32)
      ∧ IsReal (Ideal.ofBits .f32 0x358637BD#32) ∧ IsReal (Ideal.ofBits .f32 0x360637BD#32)
      ∧ IsReal (Ideal.ofBits .f32 0x300CBCCC#32) ∧ IsReal (Ideal.ofBits .f32 0x40000000#32)
      ∧ IsReal (Ideal.ofBits .f32 0x4C800000#32) :=
  ⟨f32_isReal _ (by decide), f32_isReal _ (by decide), f32_isReal _ (by decide), f32_isReal _ (by decide),
    f32_isReal _ (by decide), f32_isReal _ (by decide), f32_isReal _ (by decide)⟩

/-- The ε under the square root is nonnegative as an extended real. -/
theorem lit_eps12_nonneg : (0 : EReal) ≤ Ideal.ofBits .f32 0x2B8CBCCC#32 := by
  obtain ⟨r, hr, e⟩ := lit_eps12
  rw [e, ← EReal.coe_zero, EReal.coe_le_coe_iff]
  exact hr

/-! ### Regrouping a sum of products of real numbers

The extended reals are not a ring: a product does not distribute over a sum, and a − a is not 0, when an infinity is
present. For real numbers move every coercion outward — each of +, −, · of coerced real numbers is the coerced
real operation — until both sides are one coerced real expression, and the ring laws of the real numbers finish. -/

/-- The squared distance regrouped: the row term a2 + c·sa + e, the column term p2 − c·sp, minus k times the product,
    against a2 + p2 − k·d plus the correction c·(sa − sp) + e. -/
theorem real_ring_example (a2 sa p2 sp d c e k : ℝ) :
    (((a2 : EReal) + (c : EReal) * (sa : EReal) + (e : EReal)) + ((p2 : EReal) - (c : EReal) * (sp : EReal)))
        - (k : EReal) * (d : EReal)
      = ((((a2 : EReal) + (p2 : EReal)) - (k : EReal) * (d : EReal)) + (c : EReal) * ((sa : EReal) - (sp : EReal)))
        + (e : EReal) := by
  simp only [← EReal.coe_add, ← EReal.coe_mul, ← EReal.coe_sub]
  congr 1
  ring

/-- The same law on extended reals known to be real numbers: name the real numbers, then proceed as above. -/
theorem real_ring_example_isReal {a2 sa p2 sp d c e k : EReal} (h1 : IsReal a2) (h2 : IsReal sa) (h3 : IsReal p2)
    (h4 : IsReal sp) (h5 : IsReal d) (h6 : IsReal c) (h7 : IsReal e) (h8 : IsReal k) :
    ((a2 + c * sa + e) + (p2 - c * sp)) - k * d = (((a2 + p2) - k * d) + c * (sa - sp)) + e := by
  obtain ⟨a2, rfl⟩ := h1
  obtain ⟨sa, rfl⟩ := h2
  obtain ⟨p2, rfl⟩ := h3
  obtain ⟨sp, rfl⟩ := h4
  obtain ⟨d, rfl⟩ := h5
  obtain ⟨c, rfl⟩ := h6
  obtain ⟨e, rfl⟩ := h7
  obtain ⟨k, rfl⟩ := h8
  exact real_ring_example a2 sa p2 sp d c e k

end Cert.LossLaws

end
-- ==== Proof.Bridge.lean ====
/-
  The kernel's spelling of the loss equals the reference's when every entry of the three arrays is a real number.

  Two laws are used, and both need the entries to be real numbers (the extended reals are not a ring, and the stable
  softplus is an identity of real numbers): the expanded squared distance with its row terms and column terms folded
  separately is the same sum regrouped; and max(x, 0) + log(1 + exp(−|x|)) = log(1 + exp x).  Everything in between —
  row sums, dot products, the shifted distances (square roots of sums of squares, which are nonnegative), the floored
  square root — is a real number when the entries are, which is what lets the two laws be applied entry by entry.
-/
import proofs.«151191_j39779987096333_2_alg».proof.Proof.Spec
import proofs.«151191_j39779987096333_2_alg».proof.Proof.LibLossLaws

noncomputable section

namespace Cert.Bridge

open Idealize.ShloMosaic Idealize.ShloMosaic.ValueIdx Cert.Spec Cert.RealValued Cert.LossLaws

theorem w_eps_real : IsReal w_eps := lit_isReal.2.2.1
theorem w_2eps_real : IsReal w_2eps := lit_isReal.2.2.2.1
theorem w_deps2_real : IsReal w_deps2 := lit_isReal.2.2.2.2.1
theorem w_floor_real : IsReal w_floor := lit_isReal.2.1
theorem w_two_real : IsReal w_two := lit_isReal.2.2.2.2.2.1

section
variable {A B P N : Arr}

theorem sumSq_real (hA : ∀ i, IsReal (A i)) (r : Fin 8192) : IsReal (sumSq A r) :=
  IsReal.sum fun k => (hA _).mul (hA _)

theorem sumRow_real (hA : ∀ i, IsReal (A i)) (r : Fin 8192) : IsReal (sumRow A r) :=
  IsReal.sum fun k => hA _

theorem dotRows_real (hA : ∀ i, IsReal (A i)) (hB : ∀ i, IsReal (B i)) (r q : Fin 8192) : IsReal (dotRows A B r q) :=
  IsReal.sum fun k => (hA _).mul (hB _)

/-- A real number times itself is nonnegative, also read on the extended reals. -/
theorem mul_self_nonneg_of_isReal {x : EReal} (hx : IsReal x) : 0 ≤ x * x := by
  obtain ⟨y, rfl⟩ := hx
  rw [← EReal.coe_mul, ← EReal.coe_zero, EReal.coe_le_coe_iff]
  exact mul_self_nonneg y

theorem dshift_real (hA : ∀ i, IsReal (A i)) (hB : ∀ i, IsReal (B i)) (r : Fin 8192) : IsReal (dshift A B r) := by
  unfold dshift
  refine IsReal.sqrt (IsReal.sum fun k => (((hA _).sub (hB _)).add w_eps_real).mul (((hA _).sub (hB _)).add w_eps_real)) ?_
  exact Finset.sum_nonneg fun k _ => mul_self_nonneg_of_isReal (((hA _).sub (hB _)).add w_eps_real)

/-- The two orders of adding the terms of the expanded squared distance agree on real numbers. -/
theorem sq_eq (hA : ∀ i, IsReal (A i)) (hP : ∀ i, IsReal (P i)) (r q : Fin 8192) : sqK A P r q = sqR A P r q :=
  real_ring_example_isReal (sumSq_real hA r) (sumRow_real hA r) (sumSq_real hP q) (sumRow_real hP q)
    (dotRows_real hA hP r q) w_2eps_real w_deps2_real w_two_real

theorem sqR_real (hA : ∀ i, IsReal (A i)) (hP : ∀ i, IsReal (P i)) (r q : Fin 8192) : IsReal (sqR A P r q) := by
  unfold sqR
  exact ((((sumSq_real hA r).add (sumSq_real hP q)).sub (w_two_real.mul (dotRows_real hA hP r q))).add
    (w_2eps_real.mul ((sumRow_real hA r).sub (sumRow_real hP q)))).add w_deps2_real

theorem dist_eq (hA : ∀ i, IsReal (A i)) (hP : ∀ i, IsReal (P i)) (r q : Fin 8192) : distK A P r q = distR A P r q := by
  unfold distK distR
  rw [sq_eq hA hP r q]

theorem distR_real (hA : ∀ i, IsReal (A i)) (hP : ∀ i, IsReal (P i)) (r q : Fin 8192) : IsReal (distR A P r q) := by
  unfold distR
  exact (sqR_real hA hP r q).sqrt_max w_floor_real lit_eps12_nonneg

/-- The margin of a pair is a real number. -/
theorem marginK_real (hA : ∀ i, IsReal (A i)) (hP : ∀ i, IsReal (P i)) (hN : ∀ i, IsReal (N i)) (r q : Fin 8192) :
    IsReal (marginK A P N r q) := by
  unfold marginK
  refine (dshift_real hA hP r).sub ?_
  split
  · exact dshift_real hA hN r
  · rw [dist_eq hA hP r q]; exact distR_real hA hP r q

/-- The loss of a pair, in the kernel's stable form, is the reference's. -/
theorem loss_eq (hA : ∀ i, IsReal (A i)) (hP : ∀ i, IsReal (P i)) (hN : ∀ i, IsReal (N i)) (r q : Fin 8192) :
    lossK A P N r q = lossR A P N r q := by
  unfold lossK
  rw [softplus_stable_of_isReal (marginK_real hA hP hN r q)]
  unfold marginK lossR
  rw [dist_eq hA hP r q]

/-- So the two results agree. -/
theorem total_eq (hA : ∀ i, IsReal (A i)) (hP : ∀ i, IsReal (P i)) (hN : ∀ i, IsReal (N i)) :
    totalK A P N = totalR A P N := by
  unfold totalK totalR
  refine congrArg (fun z => Ideal.div z w_count) ?_
  exact Finset.sum_congr rfl fun r _ => Finset.sum_congr rfl fun q _ => loss_eq hA hP hN r q

end

end Cert.Bridge

end
-- ==== Proof.lean ====
/-
  The claim: the triplet-loss kernel against its jnp reference, on the extended reals, under finite inputs.

  Both programs compute, for anchors A, positives P and negatives N (8192 rows of 512 reals each), the mean over all
  8192² pairs (r, q) of log(1 + exp(d⁺_r − d⁻_{r,q})), where d⁺_r = ‖A_r − P_r + ε‖₂ and d⁻_{r,q} is
  ‖A_r − N_r + ε‖₂ on the diagonal and sqrt(max(‖A_r − P_q + ε‖₂² expanded, 1e-12)) off it.

  The kernel: host operations fold the expanded square's row terms and column terms into two vectors; a pallas_call
  on an 8 × 16 grid forms the 1024 × 512 tile of distances by one matrix product, replaces the diagonal entries on
  the tiles that meet the diagonal, takes the softplus in its stable form and adds each row's 512 terms into a
  block of row sums carried across the 16 column tiles; the host adds the 8192 row sums and divides by 8192².
  Its frame (at the word level and at the ideal values) is the body run once per control case over that carried
  block; its value is read off the frame run: the carried block by induction on the grid point, the written-back
  blocks tiling the array of row sums, the host's last two operations.  The reference is read one operation at a time.
  The two results are `Spec.totalK` and `Spec.totalR` of the arguments, equal when every entry is a real number
  (regrouping the expanded square needs the ring laws; the stable softplus is an identity of real numbers), which
  is what the precondition says.  The idealization rewrote no operation, so `preserves` has nothing to state.
-/
import proofs.«151191_j39779987096333_2_alg».proof.Defs
import proofs.«151191_j39779987096333_2_alg».proof.Proof.Gen.Kernel
import proofs.«151191_j39779987096333_2_alg».proof.Proof.Gen.KernelIdeal
import proofs.«151191_j39779987096333_2_alg».proof.Proof.Gen.ReferenceIdeal
import proofs.«151191_j39779987096333_2_alg».proof.Proof.Gen.Pre_finite_inputs
import proofs.«151191_j39779987096333_2_alg».proof.Proof.Gen.ReferenceIdeal.Run
import proofs.«151191_j39779987096333_2_alg».proof.Proof.Gen.ReferenceIdeal.Read
import proofs.«151191_j39779987096333_2_alg».proof.Proof.AccBody
import proofs.«151191_j39779987096333_2_alg».proof.Proof.AccBodyBits
import proofs.«151191_j39779987096333_2_alg».proof.Proof.KernelResult
import proofs.«151191_j39779987096333_2_alg».proof.Proof.RefValue
import proofs.«151191_j39779987096333_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.Spec Cert.RealValued

/-! ## The kernel's run, read -/

namespace KernelRun

open Cert.KernelIdeal Cert.KernelIdeal.Gen Cert.KernelIdeal.Operands

/-- At the ideal values every weakly fair execution of the kernel's @main terminates with the result at
    `totalK` of the argument arrays, and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = (fun _ => totalK (A0 m c) (A1 m c) (A2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v38 (Pipeline.mem_restRefs_of main_v38 (by decide) (by decide))).trans (Cert.KernelIdeal.Result.tail_eq m c),
      ((h c).2 main_arg0 (Pipeline.mem_restRefs_of main_arg0 (by decide) (by decide))).trans (W_main_arg0 m (Cert.KernelIdeal.Acc.dats m) c),
      ((h c).2 main_arg1 (Pipeline.mem_restRefs_of main_arg1 (by decide) (by decide))).trans (W_main_arg1 m (Cert.KernelIdeal.Acc.dats m) c),
      ((h c).2 main_arg2 (Pipeline.mem_restRefs_of main_arg2 (by decide) (by decide))).trans (W_main_arg2 m (Cert.KernelIdeal.Acc.dats m) c)⟩)
    (Cert.KernelIdeal.Acc.run_main (F := Ideal) m ρ)

end KernelRun

/-! ## The claims -/

theorem frame_p : Cert.frame_Kernel := fun m ρ _ => Cert.Kernel.Acc.frame (F := Bits) m ρ

theorem frame_pi : Cert.frame_KernelIdeal := fun m ρ _ => Cert.KernelIdeal.Acc.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories agreeing on the arguments, end at the same mean loss: the kernel at
    `totalK`, the reference at `totalR`, of arrays whose entries the precondition makes real numbers. -/
theorem algebraic : Cert.algebraic_KernelIdeal_ReferenceIdeal := by
  intro m ρ m' ρ' hpre hagree
  refine ⟨fun c => fun _ => totalK (Cert.KernelIdeal.Operands.A0 m c) (Cert.KernelIdeal.Operands.A1 m c)
    (Cert.KernelIdeal.Operands.A2 m c), KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hP, hN⟩ := Cert.Finite.real_of_pre _ _ _ (hpre c)
  rw [Cert.ReferenceIdeal.Read.val_main_v53_eq, (hagree c).1, (hagree c).2.1, (hagree c).2.2,
    Cert.ReferenceIdeal.RefValue.ref_total]
  funext _
  exact (Cert.Bridge.total_eq hA hP hN).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
